-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024x4 : Shape := ⟨3, ![4096, 1024, 4]⟩
abbrev S1024x1024x4 : Shape := ⟨3, ![1024, 1024, 4]⟩
abbrev S1024x4 : Shape := ⟨2, ![1024, 4]⟩
abbrev S_ : Shape := ⟨0, ![]⟩

class Facts : Prop where
  bcast_S_S4096x1024x4 : S_.BroadcastsInDim S4096x1024x4 (![] : Fin 0 → Fin S4096x1024x4.rank)
  reducesTo_S4096x1024x4_S_d0_1_2 : S4096x1024x4.ReducesTo [0, 1, 2] S_
  h_S_ : 0 < S_.numel
  bcast_S_S1024x1024x4 : S_.BroadcastsInDim S1024x1024x4 (![] : Fin 0 → Fin S1024x1024x4.rank)
  reducesTo_S1024x1024x4_S_d0_1_2 : S1024x1024x4.ReducesTo [0, 1, 2] S_
  bcast_S_S1024x4 : S_.BroadcastsInDim S1024x4 (![] : Fin 0 → Fin S1024x4.rank)
  reducesTo_S1024x4_S_d0_1 : S1024x4.ReducesTo [0, 1] S_

variable [Facts]

def fn {F : FTy → Type} [FloatOps F] (main_arg0 : FVec F S4096x1024x4 .f32) (main_arg1 : FVec F S1024x1024x4 .f32) (main_arg2 : FVec F S1024x4 .f32) : IVec S_ 1 :=
  let main_v0 : FVec F S4096x1024x4 .f32 := Host.absf main_arg0
  let main_cst : FVec F S_ .f32 := constant S_ .f32 0x7F800000#32
  let main_v1 : FVec F S4096x1024x4 .f32 := broadcastInDim S4096x1024x4 ![] bcast_S_S4096x1024x4 main_cst
  let main_v2 : IVec S4096x1024x4 1 := cmpf .olt main_v0 main_v1
  let main_c : IVec S_ 1 := constantI S_ 1 1#1
  let main_v3 : IVec S_ 1 := (fun x v => Host.reduce IntOp.andi x v reducesTo_S4096x1024x4_S_d0_1_2 h_S_) main_v2 main_c
  let main_v4 : FVec F S1024x1024x4 .f32 := Host.absf main_arg1
  let main_cst_0 : FVec F S_ .f32 := constant S_ .f32 0x7F800000#32
  let main_v5 : FVec F S1024x1024x4 .f32 := broadcastInDim S1024x1024x4 ![] bcast_S_S1024x1024x4 main_cst_0
  let main_v6 : IVec S1024x1024x4 1 := cmpf .olt main_v4 main_v5
  let main_c_1 : IVec S_ 1 := constantI S_ 1 1#1
  let main_v7 : IVec S_ 1 := (fun x v => Host.reduce IntOp.andi x v reducesTo_S1024x1024x4_S_d0_1_2 h_S_) main_v6 main_c_1
  let main_v8 : IVec S_ 1 := andi main_v3 main_v7
  let main_v9 : FVec F S1024x4 .f32 := Host.absf main_arg2
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  main_v13
-- ==== Kernel.lean ====
abbrev S4096x1024x4 : Shape := ⟨3, ![4096, 1024, 4]⟩
abbrev S1024x1024x4 : Shape := ⟨3, ![1024, 1024, 4]⟩
abbrev S1024x4 : Shape := ⟨2, ![1024, 4]⟩
abbrev S1024x1024x1 : Shape := ⟨3, ![1024, 1024, 1]⟩
abbrev S1024x1024 : Shape := ⟨2, ![1024, 1024]⟩
abbrev S1024x4096 : Shape := ⟨2, ![1024, 4096]⟩
abbrev S4096x4096 : Shape := ⟨2, ![4096, 4096]⟩
abbrev S4096x4x1024 : Shape := ⟨3, ![4096, 4, 1024]⟩
abbrev S1024x512 : Shape := ⟨2, ![1024, 512]⟩
abbrev S512x1024 : Shape := ⟨2, ![512, 1024]⟩
abbrev S1x1024x4 : Shape := ⟨3, ![1, 1024, 4]⟩

abbrev nBuf : Space → Nat
  | .hbm => 34
  | .vmem => 7
  | .smem => 0
  | _ => 0

abbrev bufTy : (tb : Table) → Fin (tcTables nBuf tb) → BufTy
  | .hbm, ⟨0, _⟩ => ⟨S4096x1024x4, .f32⟩
  | .hbm, ⟨1, _⟩ => ⟨S1024x1024x4, .f32⟩
  | .hbm, ⟨2, _⟩ => ⟨S1024x4, .f32⟩
  | .hbm, ⟨3, _⟩ => ⟨S1024x1024x1, .f32⟩
  | .hbm, ⟨4, _⟩ => ⟨S1024x1024, .f32⟩
  | .hbm, ⟨5, _⟩ => ⟨S1024x1024x1, .f32⟩
  | .hbm, ⟨6, _⟩ => ⟨S1024x1024, .f32⟩
  | .hbm, ⟨7, _⟩ => ⟨S1024x1024x1, .f32⟩
  | .hbm, ⟨8, _⟩ => ⟨S1024x1024, .f32⟩
  | .hbm, ⟨9, _⟩ => ⟨S1024x1024x1, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x4096, .f32⟩
  | .hbm, ⟨16, _⟩ => ⟨S1024x1024, .f32⟩
  | .hbm, ⟨17, _⟩ => ⟨S1024x1024, .f32⟩
  | .hbm, ⟨18, _⟩ => ⟨S1024x4096, .f32⟩
  | .hbm, ⟨19, _⟩ => ⟨S1024x1024, .f32⟩
  | .hbm, ⟨20, _⟩ => ⟨S1024x1024, .f32⟩
  | .hbm, ⟨21, _⟩ => ⟨S1024x4096, .f32⟩
  | .hbm, ⟨22, _⟩ => ⟨S1024x1024, .f32⟩
  | .hbm, ⟨23, _⟩ => ⟨S1024x1024, .f32⟩
  | .hbm, ⟨24, _⟩ => ⟨S1024x4096, .f32⟩
  | .hbm, ⟨25, _⟩ => ⟨S4096x4096, .f32⟩
  | .hbm, ⟨26, _⟩ => ⟨S4096x4x1024, .f32⟩
  | .hbm, ⟨27, _⟩ => ⟨S4096x4096, .f32⟩
  | .hbm, ⟨28, _⟩ => ⟨S4096x4096, .f32⟩
  | .hbm, ⟨29, _⟩ => ⟨S4096x4x1024, .f32⟩
  | .hbm, ⟨30, _⟩ => ⟨S4096x1024x4, .f32⟩
  | .hbm, ⟨31, _⟩ => ⟨S1x1024x4, .f32⟩
  | .hbm, ⟨32, _⟩ => ⟨S4096x1024x4, .f32⟩
  | .hbm, ⟨33, _⟩ => ⟨S4096x1024x4, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S1024x1024x4_S1024x1024x1_0_0_0 : S1024x1024x4.Slices ![0, 0, 0] S1024x1024x1
  shapeCasts_S1024x1024x1_S1024x1024 : S1024x1024x1.ShapeCasts S1024x1024
  slices_S1024x1024x4_S1024x1024x1_0_0_1 : S1024x1024x4.Slices ![0, 0, 1] S1024x1024x1
  slices_S1024x1024x4_S1024x1024x1_0_0_2 : S1024x1024x4.Slices ![0, 0, 2] S1024x1024x1
  slices_S1024x1024x4_S1024x1024x1_0_0_3 : S1024x1024x4.Slices ![0, 0, 3] S1024x1024x1
  transposes_S1024x1024_S1024x1024_1_0 : S1024x1024.Transposes [1, 0] S1024x1024
  concatenates_S1024x1024_S1024x1024_S1024x1024_S1024x1024_S1024x4096_d1 : Shape.Concatenates [S1024x1024, S1024x1024, S1024x1024, S1024x1024] S1024x4096 1
  concatenates_S1024x4096_S1024x4096_S1024x4096_S1024x4096_S4096x4096_d0 : Shape.Concatenates [S1024x4096, S1024x4096, S1024x4096, S1024x4096] S4096x4096 0
  transposes_S4096x1024x4_S4096x4x1024_0_2_1 : S4096x1024x4.Transposes [0, 2, 1] S4096x4x1024
  shapeCasts_S4096x4x1024_S4096x4096 : S4096x4x1024.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S4096x4096_S4096x4x1024 : S4096x4096.ShapeCasts S4096x4x1024
  transposes_S4096x4x1024_S4096x1024x4_0_2_1 : S4096x4x1024.Transposes [0, 2, 1] S4096x1024x4
  bcast_S1024x4_S1x1024x4_1_2 : S1024x4.BroadcastsInDim S1x1024x4 (![1, 2] : Fin 2 → Fin S1x1024x4.rank)
  bcast_S1x1024x4_S4096x1024x4_0_1_2 : S1x1024x4.BroadcastsInDim S4096x1024x4 (![0, 1, 2] : Fin 3 → Fin S4096x1024x4.rank)
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v24) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024x4 : Shape := ⟨3, ![4096, 1024, 4]⟩
abbrev S1024x1024x4 : Shape := ⟨3, ![1024, 1024, 4]⟩
abbrev S1024x4 : Shape := ⟨2, ![1024, 4]⟩
abbrev S4096x1024x1 : Shape := ⟨3, ![4096, 1024, 1]⟩
abbrev S4096x1024 : Shape := ⟨2, ![4096, 1024]⟩
abbrev S1024x1024x1 : Shape := ⟨3, ![1024, 1024, 1]⟩
abbrev S1024x1024 : Shape := ⟨2, ![1024, 1024]⟩
abbrev S1x1024x4 : Shape := ⟨3, ![1, 1024, 4]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024x4, .f32⟩
  | .hbm, ⟨1, _⟩ => ⟨S1024x1024x4, .f32⟩
  | .hbm, ⟨2, _⟩ => ⟨S1024x4, .f32⟩
  | .hbm, ⟨3, _⟩ => ⟨S4096x1024x1, .f32⟩
  | .hbm, ⟨4, _⟩ => ⟨S4096x1024, .f32⟩
  | .hbm, ⟨5, _⟩ => ⟨S4096x1024x1, .f32⟩
  | .hbm, ⟨6, _⟩ => ⟨S4096x1024, .f32⟩
  | .hbm, ⟨7, _⟩ => ⟨S4096x1024x1, .f32⟩
  | .hbm, ⟨8, _⟩ => ⟨S4096x1024, .f32⟩
  | .hbm, ⟨9, _⟩ => ⟨S4096x1024x1, .f32⟩
  | .hbm, ⟨10, _⟩ => ⟨S4096x1024, .f32⟩
  | .hbm, ⟨11, _⟩ => ⟨S1024x1024x1, .f32⟩
  | .hbm, ⟨12, _⟩ => ⟨S1024x1024, .f32⟩
  | .hbm, ⟨13, _⟩ => ⟨S1024x1024x1, .f32⟩
  | .hbm, ⟨14, _⟩ => ⟨S1024x1024, .f32⟩
  | .hbm, ⟨15, _⟩ => ⟨S1024x1024x1, .f32⟩
  | .hbm, ⟨16, _⟩ => ⟨S1024x1024, .f32⟩
  | .hbm, ⟨17, _⟩ => ⟨S1024x1024x1, .f32⟩
  | .hbm, ⟨18, _⟩ => ⟨S1024x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024x1, .f32⟩
  | .hbm, ⟨48, _⟩ => ⟨S4096x1024x1, .f32⟩
  | .hbm, ⟨49, _⟩ => ⟨S4096x1024x1, .f32⟩
  | .hbm, ⟨50, _⟩ => ⟨S4096x1024x1, .f32⟩
  | .hbm, ⟨51, _⟩ => ⟨S4096x1024x4, .f32⟩
  | .hbm, ⟨52, _⟩ => ⟨S1x1024x4, .f32⟩
  | .hbm, ⟨53, _⟩ => ⟨S4096x1024x4, .f32⟩
  | .hbm, ⟨54, _⟩ => ⟨S4096x1024x4, .f32⟩
  | _, _ => ⟨S4096x1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩

abbrev nD : Nat := 1
abbrev τ : Topo := Topo.v7x

variable {F : FTy → Type} [FloatOps F]

class Facts₀ : Prop where
  slices_S4096x1024x4_S4096x1024x1_0_0_0 : S4096x1024x4.Slices ![0, 0, 0] S4096x1024x1
  shapeCasts_S4096x1024x1_S4096x1024 : S4096x1024x1.ShapeCasts S4096x1024
  slices_S4096x1024x4_S4096x1024x1_0_0_1 : S4096x1024x4.Slices ![0, 0, 1] S4096x1024x1
  slices_S4096x1024x4_S4096x1024x1_0_0_2 : S4096x1024x4.Slices ![0, 0, 2] S4096x1024x1
  slices_S4096x1024x4_S4096x1024x1_0_0_3 : S4096x1024x4.Slices ![0, 0, 3] S4096x1024x1
  slices_S1024x1024x4_S1024x1024x1_0_0_0 : S1024x1024x4.Slices ![0, 0, 0] S1024x1024x1
  shapeCasts_S1024x1024x1_S1024x1024 : S1024x1024x1.ShapeCasts S1024x1024
  slices_S1024x1024x4_S1024x1024x1_0_0_1 : S1024x1024x4.Slices ![0, 0, 1] S1024x1024x1
  slices_S1024x1024x4_S1024x1024x1_0_0_2 : S1024x1024x4.Slices ![0, 0, 2] S1024x1024x1
  slices_S1024x1024x4_S1024x1024x1_0_0_3 : S1024x1024x4.Slices ![0, 0, 3] S1024x1024x1
  bcast_S4096x1024_S4096x1024x1_0_1 : S4096x1024.BroadcastsInDim S4096x1024x1 (![0, 1] : Fin 2 → Fin S4096x1024x1.rank)
  concatenates_S4096x1024x1_S4096x1024x1_S4096x1024x1_S4096x1024x1_S4096x1024x4_d2 : Shape.Concatenates [S4096x1024x1, S4096x1024x1, S4096x1024x1, S4096x1024x1] S4096x1024x4 2
  bcast_S1024x4_S1x1024x4_1_2 : S1024x4.BroadcastsInDim S1x1024x4 (![1, 2] : Fin 2 → Fin S1x1024x4.rank)
  bcast_S1x1024x4_S4096x1024x4_0_1_2 : S1x1024x4.BroadcastsInDim S4096x1024x4 (![0, 1, 2] : Fin 3 → Fin S4096x1024x4.rank)
  dot_S4096x1024_S1024x1024_S4096x1024_1_1_0_0_n_n_wf : DotDims.WF S4096x1024 S1024x1024 S4096x1024 [1] [1] [0] [0] [] []

variable [Facts₀]

def dot_S4096x1024_S1024x1024_S4096x1024_1_1_0_0_n_n : DotDims S4096x1024 S1024x1024 S4096x1024 where
  lhsContracting := [1]
  rhsContracting := [1]
  lhsNonContracting := [0]
  rhsNonContracting := [0]
  lhsBatch := []
  rhsBatch := []
  wf := dot_S4096x1024_S1024x1024_S4096x1024_1_1_0_0_n_n_wf

class Facts : Prop extends Facts₀ where

variable [Facts]
-- ==== Proof.RegionK.lean ====
/-
  The region of this program and what surrounds it, for the frame: the contents of the device's buffers when the
  region is entered (after the host lines that build the two matrix operands), @main as those lines, the region and
  the lines after it, the argument arrays untouched by either stretch of host lines, each window's block at a grid
  point, the one branch condition of the body (the reduction coordinate is zero) decided over the grid, and the
  staging and scratch memrefs as the body is called with them.
-/
import proofs.«116105_j68238440399557_1_alg».proof.Proof.Gen.Kernel.Launch
import proofs.«116105_j68238440399557_1_alg».proof.Proof.Gen.Kernel.Skeleton
import proofs.«116105_j68238440399557_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the host lines before it. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array of the region (the two matrix operands, the product). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0, and the region does not stage it. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1, and the region does not stage it. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 2, and the region does not stage it. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three argument arrays end as launched: none is an array of the region, and no host line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch -/

/-- The body clears its accumulator exactly when the reduction coordinate is zero. -/
abbrev cond0_0 (i : grid0.Coords) : Prop := (Scalar.cmpi .ne (Scalar.extui (Scalar.cmpi .eq (BitVec.ofNat 32 (i 2).val) 0#32)) 0#32) = 1#1
/-- Along the grid's order that is every eighth point. -/
theorem hcond0_0 : ∀ t : Fin cfg0.N, cond0_0 (grid0.coords t) ↔ t.val % 8 = 0 :=
  (by decide +kernel : ∀ t : Fin grid0.N, cond0_0 (grid0.coords t) ↔ t.val % 8 = 0)

/-- No window is ever idle: the body reads both operands and stores the whole product block at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The memrefs the body is called with -/

abbrev VO0_2 : View sig .tc .vmem S1024x1024 .f32 := (Memref.whole cc0_stg2_0 : Memref sig .tc .vmem S1024x1024 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- What the launch hands the body beside the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.BodyClearK.lean ====
/-
  The body of the matrix-product kernel run once, symbolically, at a grid point where the reduction coordinate is
  zero: the accumulator is first cleared, then the product of the two operand blocks is added to it, and the
  accumulator is copied to the output block. The run finds what the stores leave in the output block's buffer and in the
  accumulator as lists of written pieces.
-/
import proofs.«116105_j68238440399557_1_alg».proof.Proof.RegionK

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output block's buffer and in the accumulator, with the body's triple:
    from the two operand buffers at their contents, the output buffer at anything and the accumulator at
    anything, the body runs without a fault and gives the operand buffers back unchanged. -/
noncomputable def kernelRun0_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i)
    (x0 : Vec F S1024x512 .f32) (x1 : Vec F S512x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.BodyCarryK.lean ====
/-
  The body of the matrix-product kernel run once, symbolically, at a grid point where the reduction coordinate is
  not zero: the accumulator holds what the point before left, then the product of the two operand blocks is added to it, and the
  accumulator is copied to the output block. The run finds what the stores leave in the output block's buffer and in the
  accumulator as lists of written pieces.
-/
import proofs.«116105_j68238440399557_1_alg».proof.Proof.BodyClearK

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output block's buffer and in the accumulator, with the body's triple:
    from the two operand buffers at their contents, the output buffer at anything and the accumulator at
    what the point before left, the body runs without a fault and gives the operand buffers back unchanged. -/
noncomputable def kernelRun0_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i)
    (x0 : Vec F S1024x512 .f32) (x1 : Vec F S512x1024 .f32) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.RegionFrameK.lean ====
/-
  The frame of the matrix-product region. The grid is 4 x 4 x 8, the last coordinate the reduction's: at each point
  the body adds the product of a [1024,512] block of the left operand and a [512,1024] block of the right operand to an
  accumulator of its own, cleared when the reduction coordinate is zero, and copies the accumulator to the output
  block, which is written back after the eighth step. What the accumulator and the output block hold after each point is
  defined by recursion on the point; the invariant between points holds the accumulator at those contents.
-/
import proofs.«116105_j68238440399557_1_alg».proof.Proof.BodyCarryK

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's stores into the output block's buffer cover it. -/
theorem cover0_A_2 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i)
    (x0 : Vec F S1024x512 .f32) (x1 : Vec F S512x1024 .f32) (y : S1024x1024.Idx) :
    ∃ pc ∈ (kernelRun0_A c i arg3 harg3 arg4 harg4 arg5 harg5 arg6 harg6 hc0 x0 x1).1, y ∈ pc.1.set :=
  View.cover_of_tiledL (kernelRun0_A c i arg3 harg3 arg4 harg4 arg5 harg5 arg6 harg6 hc0 x0 x1).1 S1024x1024.size (by sl_kernel_rfl) y

/-- What the body leaves in the output block's buffer. -/
def out0_A_2 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i)
    (x0 : Vec F S1024x512 .f32) (x1 : Vec F S512x1024 .f32) : Vec F S1024x1024 .f32 :=
  VO0_2.read (Elt F) (VO0_2.writes (Elt F) VO0_2.junk (kernelRun0_A c i arg3 harg3 arg4 harg4 arg5 harg5 arg6 harg6 hc0 x0 x1).1)

/-- The body's stores into the accumulator cover it. -/
theorem scover0_A_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i)
    (x0 : Vec F S1024x512 .f32) (x1 : Vec F S512x1024 .f32) (y : S1024x1024.Idx) :
    ∃ pc ∈ (kernelRun0_A c i arg3 harg3 arg4 harg4 arg5 harg5 arg6 harg6 hc0 x0 x1).2.1, y ∈ pc.1.set :=
  View.cover_of_tiledL (kernelRun0_A c i arg3 harg3 arg4 harg4 arg5 harg5 arg6 harg6 hc0 x0 x1).2.1 S1024x1024.size (by sl_kernel_rfl) y

/-- What the body leaves in the accumulator. -/
def sout0_A_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i)
    (x0 : Vec F S1024x512 .f32) (x1 : Vec F S512x1024 .f32) : Vec F S1024x1024 .f32 :=
  VS0_0.read (Elt F) (VS0_0.writes (Elt F) VS0_0.junk (kernelRun0_A c i arg3 harg3 arg4 harg4 arg5 harg5 arg6 harg6 hc0 x0 x1).2.1)

/-- The body's stores into the output block's buffer cover it. -/
theorem cover0_B_2 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i)
    (x0 : Vec F S1024x512 .f32) (x1 : Vec F S512x1024 .f32) (xs0 : Vec F S1024x1024 .f32) (y : S1024x1024.Idx) :
    ∃ pc ∈ (kernelRun0_B c i arg3 harg3 arg4 harg4 arg5 harg5 arg6 harg6 hc0 x0 x1 xs0).1, y ∈ pc.1.set :=
  View.cover_of_tiledL (kernelRun0_B c i arg3 harg3 arg4 harg4 arg5 harg5 arg6 harg6 hc0 x0 x1 xs0).1 S1024x1024.size (by sl_kernel_rfl) y

/-- What the body leaves in the output block's buffer. -/
def out0_B_2 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i)
    (x0 : Vec F S1024x512 .f32) (x1 : Vec F S512x1024 .f32) (xs0 : Vec F S1024x1024 .f32) : Vec F S1024x1024 .f32 :=
  VO0_2.read (Elt F) (VO0_2.writes (Elt F) VO0_2.junk (kernelRun0_B c i arg3 harg3 arg4 harg4 arg5 harg5 arg6 harg6 hc0 x0 x1 xs0).1)

/-- The body's stores into the accumulator cover it. -/
theorem scover0_B_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i)
    (x0 : Vec F S1024x512 .f32) (x1 : Vec F S512x1024 .f32) (xs0 : Vec F S1024x1024 .f32) (y : S1024x1024.Idx) :
    ∃ pc ∈ (kernelRun0_B c i arg3 harg3 arg4 harg4 arg5 harg5 arg6 harg6 hc0 x0 x1 xs0).2.1, y ∈ pc.1.set :=
  View.cover_of_tiledL (kernelRun0_B c i arg3 harg3 arg4 harg4 arg5 harg5 arg6 harg6 hc0 x0 x1 xs0).2.1 S1024x1024.size (by sl_kernel_rfl) y

/-- What the body leaves in the accumulator. -/
def sout0_B_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i)
    (x0 : Vec F S1024x512 .f32) (x1 : Vec F S512x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 x0 x1 xs0).2.1)

/-! ## What the output block's buffer and the accumulator hold after each point -/

/-- After the body at position `n`: the output block's buffer, then the accumulator. Where the reduction coordinate is
    zero the body starts from a cleared accumulator; elsewhere from what the point before left in it. -/
def outsAt0 (c : Dev nD) : (n : ℕ) → n < cfg0.N → Vec F S1024x1024 .f32 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point what the launch hands over; afterwards the accumulator
    at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The region's proof data -/

/-- The arrays as the region finds them; after the body each operand's buffer at its block and the output block's
    buffer at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the operands' buffers hold their blocks; the point's position decides whether the
    accumulator is cleared; the invariant hands the body the accumulator (at anything before the first point, at what
    the point before left afterwards) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [outsAt0_A m c t h0]
      unfold out0_A_2 sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (iblk m c 0 t) (iblk m c 1 t)).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_A_2 c _ _ _ _ _ _ _ _ _ _ _ _)
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (iblk m c 0 t) (iblk m c 1 t)).2.2 Set.univ _)
        isplitl [H0]; · iexact H0
        isplitl [H1]; · iexact H1
        isplitl [H2]; · iexists _; iexact H2
        isplitl [HS0]; · iexists _; iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_A_2 c _ _ _ _ _ _ _ _ _ _ _ _)
  ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [outsAt0_B m c t h0]
      unfold out0_B_2 sout0_B_0; (try dsimp only)
      by_cases hz : t.val = 0
      · exfalso; exact h0 (by rw [hz])
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_B_2 c _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates; at the end every array of the region holds what the proof data
    says was written back, and every other unscoped buffer what the lines after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end without a fault and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Fr

end
-- ==== Proof.RegionI.lean ====
/-
  The region of this program and what surrounds it, for the frame: the contents of the device's buffers when the
  region is entered (after the host lines that build the two matrix operands), @main as those lines, the region and
  the lines after it, the argument arrays untouched by either stretch of host lines, each window's block at a grid
  point, the one branch condition of the body (the reduction coordinate is zero) decided over the grid, and the
  staging and scratch memrefs as the body is called with them.
-/
import proofs.«116105_j68238440399557_1_alg».proof.Proof.Gen.KernelIdeal.Launch
import proofs.«116105_j68238440399557_1_alg».proof.Proof.Gen.KernelIdeal.Skeleton
import proofs.«116105_j68238440399557_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the host lines before it. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array of the region (the two matrix operands, the product). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0, and the region does not stage it. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1, and the region does not stage it. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 2, and the region does not stage it. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three argument arrays end as launched: none is an array of the region, and no host line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch -/

/-- The body clears its accumulator exactly when the reduction coordinate is zero. -/
abbrev cond0_0 (i : grid0.Coords) : Prop := (Scalar.cmpi .ne (Scalar.extui (Scalar.cmpi .eq (BitVec.ofNat 32 (i 2).val) 0#32)) 0#32) = 1#1
/-- Along the grid's order that is every eighth point. -/
theorem hcond0_0 : ∀ t : Fin cfg0.N, cond0_0 (grid0.coords t) ↔ t.val % 8 = 0 :=
  (by decide +kernel : ∀ t : Fin grid0.N, cond0_0 (grid0.coords t) ↔ t.val % 8 = 0)

/-- No window is ever idle: the body reads both operands and stores the whole product block at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The memrefs the body is called with -/

abbrev VO0_2 : View sig .tc .vmem S1024x1024 .f32 := (Memref.whole cc0_stg2_0 : Memref sig .tc .vmem S1024x1024 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- What the launch hands the body beside the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.BodyClearI.lean ====
/-
  The body of the matrix-product kernel run once, symbolically, at a grid point where the reduction coordinate is
  zero: the accumulator is first cleared, then the product of the two operand blocks is added to it, and the
  accumulator is copied to the output block. The run finds what the stores leave in the output block's buffer and in the
  accumulator as lists of written pieces.
-/
import proofs.«116105_j68238440399557_1_alg».proof.Proof.RegionI

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output block's buffer and in the accumulator, with the body's triple:
    from the two operand buffers at their contents, the output buffer at anything and the accumulator at
    anything, the body runs without a fault and gives the operand buffers back unchanged. -/
noncomputable def kernelRun0_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i)
    (x0 : Vec F S1024x512 .f32) (x1 : Vec F S512x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.BodyCarryI.lean ====
/-
  The body of the matrix-product kernel run once, symbolically, at a grid point where the reduction coordinate is
  not zero: the accumulator holds what the point before left, then the product of the two operand blocks is added to it, and the
  accumulator is copied to the output block. The run finds what the stores leave in the output block's buffer and in the
  accumulator as lists of written pieces.
-/
import proofs.«116105_j68238440399557_1_alg».proof.Proof.BodyClearI

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output block's buffer and in the accumulator, with the body's triple:
    from the two operand buffers at their contents, the output buffer at anything and the accumulator at
    what the point before left, the body runs without a fault and gives the operand buffers back unchanged. -/
noncomputable def kernelRun0_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i)
    (x0 : Vec F S1024x512 .f32) (x1 : Vec F S512x1024 .f32) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.RegionFrameI.lean ====
/-
  The frame of the matrix-product region. The grid is 4 x 4 x 8, the last coordinate the reduction's: at each point
  the body adds the product of a [1024,512] block of the left operand and a [512,1024] block of the right operand to an
  accumulator of its own, cleared when the reduction coordinate is zero, and copies the accumulator to the output
  block, which is written back after the eighth step. What the accumulator and the output block hold after each point is
  defined by recursion on the point; the invariant between points holds the accumulator at those contents.
-/
import proofs.«116105_j68238440399557_1_alg».proof.Proof.BodyCarryI

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's stores into the output block's buffer cover it. -/
theorem cover0_A_2 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i)
    (x0 : Vec F S1024x512 .f32) (x1 : Vec F S512x1024 .f32) (y : S1024x1024.Idx) :
    ∃ pc ∈ (kernelRun0_A c i arg3 harg3 arg4 harg4 arg5 harg5 arg6 harg6 hc0 x0 x1).1, y ∈ pc.1.set :=
  View.cover_of_tiledL (kernelRun0_A c i arg3 harg3 arg4 harg4 arg5 harg5 arg6 harg6 hc0 x0 x1).1 S1024x1024.size (by sl_kernel_rfl) y

/-- What the body leaves in the output block's buffer. -/
def out0_A_2 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i)
    (x0 : Vec F S1024x512 .f32) (x1 : Vec F S512x1024 .f32) : Vec F S1024x1024 .f32 :=
  VO0_2.read (Elt F) (VO0_2.writes (Elt F) VO0_2.junk (kernelRun0_A c i arg3 harg3 arg4 harg4 arg5 harg5 arg6 harg6 hc0 x0 x1).1)

/-- The body's stores into the accumulator cover it. -/
theorem scover0_A_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i)
    (x0 : Vec F S1024x512 .f32) (x1 : Vec F S512x1024 .f32) (y : S1024x1024.Idx) :
    ∃ pc ∈ (kernelRun0_A c i arg3 harg3 arg4 harg4 arg5 harg5 arg6 harg6 hc0 x0 x1).2.1, y ∈ pc.1.set :=
  View.cover_of_tiledL (kernelRun0_A c i arg3 harg3 arg4 harg4 arg5 harg5 arg6 harg6 hc0 x0 x1).2.1 S1024x1024.size (by sl_kernel_rfl) y

/-- What the body leaves in the accumulator. -/
def sout0_A_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i)
    (x0 : Vec F S1024x512 .f32) (x1 : Vec F S512x1024 .f32) : Vec F S1024x1024 .f32 :=
  VS0_0.read (Elt F) (VS0_0.writes (Elt F) VS0_0.junk (kernelRun0_A c i arg3 harg3 arg4 harg4 arg5 harg5 arg6 harg6 hc0 x0 x1).2.1)

/-- The body's stores into the output block's buffer cover it. -/
theorem cover0_B_2 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i)
    (x0 : Vec F S1024x512 .f32) (x1 : Vec F S512x1024 .f32) (xs0 : Vec F S1024x1024 .f32) (y : S1024x1024.Idx) :
    ∃ pc ∈ (kernelRun0_B c i arg3 harg3 arg4 harg4 arg5 harg5 arg6 harg6 hc0 x0 x1 xs0).1, y ∈ pc.1.set :=
  View.cover_of_tiledL (kernelRun0_B c i arg3 harg3 arg4 harg4 arg5 harg5 arg6 harg6 hc0 x0 x1 xs0).1 S1024x1024.size (by sl_kernel_rfl) y

/-- What the body leaves in the output block's buffer. -/
def out0_B_2 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i)
    (x0 : Vec F S1024x512 .f32) (x1 : Vec F S512x1024 .f32) (xs0 : Vec F S1024x1024 .f32) : Vec F S1024x1024 .f32 :=
  VO0_2.read (Elt F) (VO0_2.writes (Elt F) VO0_2.junk (kernelRun0_B c i arg3 harg3 arg4 harg4 arg5 harg5 arg6 harg6 hc0 x0 x1 xs0).1)

/-- The body's stores into the accumulator cover it. -/
theorem scover0_B_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i)
    (x0 : Vec F S1024x512 .f32) (x1 : Vec F S512x1024 .f32) (xs0 : Vec F S1024x1024 .f32) (y : S1024x1024.Idx) :
    ∃ pc ∈ (kernelRun0_B c i arg3 harg3 arg4 harg4 arg5 harg5 arg6 harg6 hc0 x0 x1 xs0).2.1, y ∈ pc.1.set :=
  View.cover_of_tiledL (kernelRun0_B c i arg3 harg3 arg4 harg4 arg5 harg5 arg6 harg6 hc0 x0 x1 xs0).2.1 S1024x1024.size (by sl_kernel_rfl) y

/-- What the body leaves in the accumulator. -/
def sout0_B_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i)
    (x0 : Vec F S1024x512 .f32) (x1 : Vec F S512x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 x0 x1 xs0).2.1)

/-! ## What the output block's buffer and the accumulator hold after each point -/

/-- After the body at position `n`: the output block's buffer, then the accumulator. Where the reduction coordinate is
    zero the body starts from a cleared accumulator; elsewhere from what the point before left in it. -/
def outsAt0 (c : Dev nD) : (n : ℕ) → n < cfg0.N → Vec F S1024x1024 .f32 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point what the launch hands over; afterwards the accumulator
    at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The region's proof data -/

/-- The arrays as the region finds them; after the body each operand's buffer at its block and the output block's
    buffer at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the operands' buffers hold their blocks; the point's position decides whether the
    accumulator is cleared; the invariant hands the body the accumulator (at anything before the first point, at what
    the point before left afterwards) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [outsAt0_A m c t h0]
      unfold out0_A_2 sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (iblk m c 0 t) (iblk m c 1 t)).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_A_2 c _ _ _ _ _ _ _ _ _ _ _ _)
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (iblk m c 0 t) (iblk m c 1 t)).2.2 Set.univ _)
        isplitl [H0]; · iexact H0
        isplitl [H1]; · iexact H1
        isplitl [H2]; · iexists _; iexact H2
        isplitl [HS0]; · iexists _; iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_A_2 c _ _ _ _ _ _ _ _ _ _ _ _)
  ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [outsAt0_B m c t h0]
      unfold out0_B_2 sout0_B_0; (try dsimp only)
      by_cases hz : t.val = 0
      · exfalso; exact h0 (by rw [hz])
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_B_2 c _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates; at the end every array of the region holds what the proof data
    says was written back, and every other unscoped buffer what the lines after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end without a fault and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Fr

end
-- ==== Proof.CaseValues.lean ====
/-
  What one run of the kernel body leaves, as values. Every store of the body writes a whole [1024,1024] block, so the
  last store into a buffer decides its contents, and a load after a store reads what was stored. Where the reduction
  coordinate is zero the accumulator ends at the body's sum term over a cleared accumulator; elsewhere at the same
  term over what the accumulator held before. The output block ends at a copy of the accumulator.
-/
import proofs.«116105_j68238440399557_1_alg».proof.Proof.RegionFrameI
import Idealize.ShloMosaic.Lib.Pipeline.Value

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A load of the whole block after a list of stores whose last one wrote the whole block reads that store's value. -/
theorem readCov_last_whole {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- Reduction coordinate not zero: the accumulator ends at the body's sum term over its earlier contents. -/
theorem sout_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (x0 : Vec F S1024x512 .f32) (x1 : Vec F S512x1024 .f32) (xs0 : Vec F S1024x1024 .f32) :
    sout0_B_0 c i arg3 harg3 arg4 harg4 arg5 harg5 arg6 harg6 hc0 x0 x1 xs0 = k0_pay2 x0 x1 xs0 := by
  unfold sout0_B_0
  rw [View.read_writes_eq_canon _ _ _ (scover0_B_0 c i arg3 harg3 arg4 harg4 arg5 harg5 arg6 harg6 hc0 x0 x1 xs0)]
  unfold kernelRun0_B
  dsimp only
  sl_unfold_words
  rw [View.canon_unit_zero hz]
  simp only [View.readAt_eq_ld, harg3.read_unread, harg4.read_unread, harg6.read_unread, View.ld_unit_zero (S := S1024x512) hz, View.ld_unit_zero (S := S512x1024) hz, View.ld_unit_zero (S := S1024x1024) hz]

/-- And the output block is a copy of it. -/
theorem out_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (x0 : Vec F S1024x512 .f32) (x1 : Vec F S512x1024 .f32) (xs0 : Vec F S1024x1024 .f32) :
    out0_B_2 c i arg3 harg3 arg4 harg4 arg5 harg5 arg6 harg6 hc0 x0 x1 xs0 = k0_pay2 x0 x1 xs0 := by
  unfold out0_B_2
  rw [View.read_writes_eq_canon _ _ _ (cover0_B_2 c i arg3 harg3 arg4 harg4 arg5 harg5 arg6 harg6 hc0 x0 x1 xs0)]
  unfold kernelRun0_B
  dsimp only
  sl_unfold_words
  rw [View.canon_unit_zero hz, readCov_last_whole _ hz]
  simp only [View.readAt_eq_ld, harg3.read_unread, harg4.read_unread, harg6.read_unread, View.ld_unit_zero (S := S1024x512) hz, View.ld_unit_zero (S := S512x1024) hz, View.ld_unit_zero (S := S1024x1024) hz]

/-- Reduction coordinate zero: the same term over the cleared accumulator. -/
theorem sout_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (x0 : Vec F S1024x512 .f32) (x1 : Vec F S512x1024 .f32) :
    sout0_A_0 c i arg3 harg3 arg4 harg4 arg5 harg5 arg6 harg6 hc0 x0 x1 = k0_pay2 x0 x1 (k0_pay1) := by
  unfold sout0_A_0
  rw [View.read_writes_eq_canon _ _ _ (scover0_A_0 c i arg3 harg3 arg4 harg4 arg5 harg5 arg6 harg6 hc0 x0 x1)]
  unfold kernelRun0_A
  dsimp only
  sl_unfold_words
  rw [View.canon_cons_unit_zero (S := S1024x1024) hz, readCov_last_whole _ hz]
  simp only [View.readAt_eq_ld, harg3.read_unread, harg4.read_unread, View.ld_unit_zero (S := S1024x512) hz, View.ld_unit_zero (S := S512x1024) hz]

theorem out_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (x0 : Vec F S1024x512 .f32) (x1 : Vec F S512x1024 .f32) :
    out0_A_2 c i arg3 harg3 arg4 harg4 arg5 harg5 arg6 harg6 hc0 x0 x1 = k0_pay2 x0 x1 (k0_pay1) := by
  unfold out0_A_2
  rw [View.read_writes_eq_canon _ _ _ (cover0_A_2 c i arg3 harg3 arg4 harg4 arg5 harg5 arg6 harg6 hc0 x0 x1)]
  unfold kernelRun0_A
  dsimp only
  sl_unfold_words
  rw [View.canon_unit_zero hz, readCov_last_whole _ hz, readCov_last_whole _ hz]
  simp only [View.readAt_eq_ld, harg3.read_unread, harg4.read_unread, View.ld_unit_zero (S := S1024x512) hz, View.ld_unit_zero (S := S512x1024) hz]

end Cert.KernelIdeal.Fr

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.PayloadAt.lean ====
/-
  The body's sum term read at an entry, over the extended reals: the accumulator's entry plus the inner product of a
  row of the left block with a column of the right block, 512 terms. A change of float format is the identity there,
  so the two casts to the narrower format in front of the matrix unit do nothing; the cleared accumulator's entry is 0.
-/
import proofs.«116105_j68238440399557_1_alg».proof.Proof.CaseValues
import proofs.«116105_j68238440399557_1_alg».proof.Proof.LibPlainDot
import Idealize.ShloMosaic.Lib.ValueIdx

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem pay2_apply (x0 : Vec Ideal S1024x512 .f32) (x1 : Vec Ideal S512x1024 .f32) (acc : Vec Ideal S1024x1024 .f32) (p q : Fin 1024) :
    k0_pay2 (F := Ideal) x0 x1 acc (ix2 p q) = acc (ix2 p q) + ∑ l : Fin 512, x0 (ix2 p l) * x1 (ix2 l q) := by
  unfold k0_pay2
  simp only [shapeCast_self]
  show acc (ix2 p q) + _ = _
  congr 1
  exact Cert.Lib.matmul_zero_apply dot_S1024x512_S512x1024_S1024x1024_1_0_0_1_n_n_wf none _ _ p q

theorem pay1_apply (j : S1024x1024.Idx) : k0_pay1 (F := Ideal) j = 0 := by
  unfold k0_pay1
  simp only [shapeCast_self]
  show Ideal.ofBits .f32 0x00000000#32 = 0
  exact Ideal.ofBits_zero_f32

end Cert.KernelIdeal.Fr

end
-- ==== Proof.LibRealVar.lean ====
/-
  Facts about extended reals that happen to be reals: a finite sum of reals is the real sum; sums, products,
  differences, quotients by a nonzero real, maxima and the reciprocal square root of a positive real stay real;
  and the variance identity: for a real column y_1 … y_n with mean μ = (∑ y) / n,
      (∑ (y_p − μ)²) / n = (∑ y_p²) / n − μ²,
  which is distributivity and therefore needs every y_p to be a real. The deviation form is also nonnegative.
-/
import Idealize.ShloMosaic.PureOps.Ideal

noncomputable section

namespace Cert.RealMath

open Idealize.ShloMosaic

/-- x is (the coercion of) a real number. -/
def IsReal (x : EReal) : Prop := ∃ r : ℝ, x = (r : EReal)

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isReal_div {x : EReal} {c : ℝ} (hx : IsReal x) (hc : c ≠ 0) : IsReal (Ideal.div x (c : EReal)) := by
  obtain ⟨a, rfl⟩ := hx
  exact ⟨a * (1 / c), by rw [Ideal.div_coe hc, ← EReal.coe_mul]⟩

theorem isReal_max {x y : EReal} (hx : IsReal x) (hy : IsReal y) : IsReal (max x y) := by
  rcases le_total x y with h | h
  · rw [max_eq_right h]; exact hy
  · rw [max_eq_left h]; exact hx

theorem isReal_rsqrt {r : ℝ} (h : 0 < r) : IsReal (Ideal.rsqrt (r : EReal)) :=
  ⟨(Real.sqrt r)⁻¹, by rw [Ideal.rsqrt_coe, if_neg (not_lt.mpr h.le), if_neg h.ne']⟩

section Variance

variable {n : ℕ} (y : Fin n → EReal) (c : ℝ)

/-- The variance identity on a real column. -/
theorem var_identity (hy : ∀ p, IsReal (y p)) (hc : c ≠ 0) (hn : (n : ℝ) = c) :
    Ideal.div (∑ p, (y p - Ideal.div (∑ p, y p) (c : EReal)) * (y p - Ideal.div (∑ p, y p) (c : EReal))) (c : EReal)
      = Ideal.div (∑ p, y p * y p) (c : EReal)
        - Ideal.div (∑ p, y p) (c : EReal) * Ideal.div (∑ p, y p) (c : EReal) := by
  choose yr hyr using hy
  simp only [hyr]
  have hS : ∑ p, ((yr p : ℝ) : EReal) = ((∑ p, yr p : ℝ) : EReal) := coe_sum _ _
  have hSS : ∑ p, ((yr p : ℝ) : EReal) * ((yr p : ℝ) : EReal) = ((∑ p, yr p * yr p : ℝ) : EReal) := by
    rw [← coe_sum]; exact Finset.sum_congr rfl fun p _ => (EReal.coe_mul _ _).symm
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc, ← EReal.coe_mul, hμ]
  rw [hM, hSS]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc, Ideal.div_coe hc, ← EReal.coe_mul, ← EReal.coe_mul, ← EReal.coe_mul, ← EReal.coe_sub]
  refine congrArg _ ?_
  have h1 : ∀ p, (yr p - μ) * (yr p - μ) = yr p * yr p - 2 * μ * yr p + μ * μ := fun p => by ring
  simp only [h1, Finset.sum_add_distrib, Finset.sum_sub_distrib, ← Finset.mul_sum, Finset.sum_const,
    Finset.card_univ, Fintype.card_fin, nsmul_eq_mul]
  rw [hn, hμ]
  field_simp
  ring

/-- The mean of squared deviations of a real column, over a positive count, is a nonnegative real. -/
theorem var_nonneg (hy : ∀ p, IsReal (y p)) (hc : 0 < c) :
    ∃ v : ℝ, 0 ≤ v ∧ Ideal.div (∑ p, (y p - Ideal.div (∑ p, y p) (c : EReal)) * (y p - Ideal.div (∑ p, y p) (c : EReal)))
      (c : EReal) = (v : EReal) := by
  choose yr hyr using hy
  simp only [hyr]
  have hS : ∑ p, ((yr p : ℝ) : EReal) = ((∑ p, yr p : ℝ) : EReal) := coe_sum _ _
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc.ne', ← EReal.coe_mul, hμ]
  rw [hM]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc.ne', ← EReal.coe_mul]
  exact ⟨_, mul_nonneg (Finset.sum_nonneg fun p _ => mul_self_nonneg _) (by positivity), rfl⟩

end Variance

end Cert.RealMath

end
-- ==== Proof.LibTileSum.lean ====
/-
  Two small facts about sums and columns, independent of any program.

  A sum over the first m·n naturals can be taken tile by tile: n consecutive tiles of m positions each, tile s holding
  the positions m·s, m·s + 1, …, m·s + (m − 1). Only commutativity and associativity of the addition are used, so the
  fact holds in every commutative additive monoid — the extended reals included, infinities and all.

  A column of shape [a, 1] cast to the vector shape [a] keeps the row-major order, so the vector's entry at i is the
  column's entry at (i, 0).
-/
import Idealize.ShloMosaic.Lib.ValueIdx
import Idealize.ShloMosaic.Lib.Pipeline.Value

noncomputable section

namespace Cert.Lib

open Idealize.ShloMosaic Idealize.ShloMosaic.ValueIdx

/-- The first m·n naturals, summed tile by tile. -/
theorem sum_range_tiles {β : Type*} [AddCommMonoid β] (g : ℕ → β) (m : ℕ) : ∀ n : ℕ,
    ∑ s ∈ Finset.range n, ∑ q ∈ Finset.range m, g (m * s + q) = ∑ k ∈ Finset.range (m * n), g k
  | 0 => by simp
  | n + 1 => by
    rw [Finset.sum_range_succ, sum_range_tiles g m n, Nat.mul_succ, Finset.sum_range_add]

/-- The same with each tile's positions and the whole range as finite index types. -/
theorem sum_fin_tiles {β : Type*} [AddCommMonoid β] (g : ℕ → β) (m n : ℕ) {N : ℕ} (hN : m * n = N) :
    ∑ s ∈ Finset.range n, ∑ q : Fin m, g (m * s + q.val) = ∑ k : Fin N, g k.val := by
  subst hN
  rw [← Finset.sum_range (fun k => g k), ← sum_range_tiles g m n]
  exact Finset.sum_congr rfl fun s _ => (Finset.sum_range (fun q => g (m * s + q))).symm

variable {α : Type}

/-- A column [a, 1] cast to the vector shape [a] reads, at i, the column's entry at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.ProductMath.lean ====
/-
  Arithmetic used on both sides of the comparison, independent of any program.

  A matrix entry addressed by natural numbers (zero outside the matrix), so that a contraction can be split into
  consecutive tiles with plain arithmetic on positions: the inner product of row a of X with column b of M over K = m·n
  positions is the sum over n tiles of the tile's m products. Only commutativity and associativity of addition are
  used there, so it holds with infinite entries too.

  What does need real entries: a sum of products a·(−b) is minus the sum of the products a·b. Over the extended reals
  −(x + y) = −x − y fails when x and y are opposite infinities.
-/
import Idealize.ShloMosaic.PureOps.Ideal
import Idealize.ShloMosaic.Lib.ValueIdx
import proofs.«116105_j68238440399557_1_alg».proof.Proof.LibRealVar
import proofs.«116105_j68238440399557_1_alg».proof.Proof.LibTileSum

noncomputable section

namespace Cert.Quat

open Idealize.ShloMosaic Idealize.ShloMosaic.ValueIdx Cert.RealMath

/-- Entry (a, b) of a matrix, by natural numbers; zero outside. -/
def at2 {A B : ℕ} (v : (⟨2, ![A, B]⟩ : Shape).Idx → EReal) (a b : ℕ) : EReal :=
  if h : a < A ∧ b < B then v (ix2 ⟨a, h.1⟩ ⟨b, h.2⟩) else 0

theorem at2_of_lt {A B : ℕ} (v : (⟨2, ![A, B]⟩ : Shape).Idx → EReal) {a b : ℕ} (ha : a < A) (hb : b < B) :
    at2 v a b = v (ix2 ⟨a, ha⟩ ⟨b, hb⟩) := dif_pos ⟨ha, hb⟩

/-- The inner product of row a of X with column b of M, taken in n tiles of m positions. -/
theorem tiles_eq {A K B : ℕ} (X : (⟨2, ![A, K]⟩ : Shape).Idx → EReal) (M : (⟨2, ![K, B]⟩ : Shape).Idx → EReal)
    (a : Fin A) (b : Fin B) (m n : ℕ) (h : m * n = K) :
    ∑ s ∈ Finset.range n, ∑ l : Fin m, at2 X a.val (m * s + l.val) * at2 M (m * s + l.val) b.val
      = ∑ l : Fin K, X (ix2 a l) * M (ix2 l b) := by
  rw [Cert.Lib.sum_fin_tiles (fun k => at2 X a.val k * at2 M k b.val) m n h]
  refine Finset.sum_congr rfl fun l _ => ?_
  rw [at2_of_lt X a.isLt l.isLt, at2_of_lt M l.isLt b.isLt]

/-- On real entries, a sum of products with the second factors negated is minus the sum of the products. -/
theorem sum_mul_neg {ι : Type*} [Fintype ι] (a b : ι → EReal) (ha : ∀ i, IsReal (a i)) (hb : ∀ i, IsReal (b i)) :
    ∑ i, a i * -(b i) = -(∑ i, a i * b i) := by
  choose ar har using ha
  choose br hbr using hb
  simp only [har, hbr]
  have h1 : ∀ i, ((ar i : ℝ) : EReal) * -((br i : ℝ) : EReal) = ((ar i * -(br i) : ℝ) : EReal) := fun i => by
    rw [← EReal.coe_neg, ← EReal.coe_mul]
  have h2 : ∀ i, ((ar i : ℝ) : EReal) * ((br i : ℝ) : EReal) = ((ar i * br i : ℝ) : EReal) := fun i =>
    (EReal.coe_mul _ _).symm
  simp only [h1, h2, coe_sum]
  rw [← EReal.coe_neg]
  refine congrArg _ ?_
  simp only [mul_neg, Finset.sum_neg_distrib]

end Cert.Quat

end
-- ==== Proof.Accumulation.lean ====
/-
  The product array after the region, over the extended reals.

  Point t of the 4 x 4 x 8 grid has coordinates (t / 32, t / 8 mod 4, t mod 8): a block row of the left operand, a
  block column of the right operand, and a step of the reduction. After the body at t the accumulator's entry (p, q)
  is the inner product of row 1024·(t/32) + p of the left operand with column 1024·(t/8 mod 4) + q of the right operand
  over the first 512·(t mod 8 + 1) shared positions: at step 0 the accumulator starts from zero, at a later step from
  what the step before left, and consecutive points with a nonzero step share their row and column. The block is written
  back after step 7, when the inner product is over all 4096 positions; the sixteen blocks tile the array.
-/
import proofs.«116105_j68238440399557_1_alg».proof.Proof.PayloadAt
import proofs.«116105_j68238440399557_1_alg».proof.Proof.ProductMath

set_option maxRecDepth 16384

noncomputable section

namespace Cert.KernelIdeal.Fr

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)
open Cert.Quat

variable (m : (ℓ : Loc nD τ sig) → Buf (Elt Ideal) ℓ) (ρ : Dev nD → PrngReg)

/-- The two matrix operands as the region finds them. -/
abbrev XF (c : Dev nD) : (⟨2, ![4096, 4096]⟩ : Shape).Idx → EReal := V m c main_v24
abbrev MF (c : Dev nD) : (⟨2, ![4096, 4096]⟩ : Shape).Idx → EReal := V m c main_v22

/-- The windows' block indices at a point, in closed form. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = t.val / 8 % 4 :=
  (by decide +kernel : ∀ t : Fin grid0.N, _)

/-- An entry of the left operand's block at a point is an entry of the left operand. -/
theorem iblk0_apply (c : Dev nD) (n : ℕ) (h : n < cfg0.N) (p : Fin 1024) (l : Fin 512) :
    (iblk m c 0 ⟨n, h⟩ : Vec Ideal S1024x512 .f32) (ix2 p l)
      = at2 (XF m c) (1024 * (n / 32) + p.val) (512 * (n % 8) + l.val) := by
  have hN : n < 128 := lt_of_lt_of_eq h (show cfg0.N = 128 from N_0)
  rw [at2_of_lt _ (by omega) (by omega)]
  unfold iblk
  rw [View.read_apply]
  show V m c main_v24 _ = V m c main_v24 _
  refine congrArg _ (funext fun a => Fin.ext ?_)
  obtain ⟨e0, e1, -⟩ := idx_facts ⟨n, h⟩
  match a with
  | ⟨0, _⟩ => show win0_0.index ⟨n, h⟩ (0 : Fin 2) * 1024 + 1 * p.val = 1024 * (n / 32) + p.val; rw [e0]; dsimp only; omega
  | ⟨1, _⟩ => show win0_0.index ⟨n, h⟩ (1 : Fin 2) * 512 + 1 * l.val = 512 * (n % 8) + l.val; rw [e1]; dsimp only; omega

/-- An entry of the right operand's block at a point is an entry of the right operand. -/
theorem iblk1_apply (c : Dev nD) (n : ℕ) (h : n < cfg0.N) (l : Fin 512) (q : Fin 1024) :
    (iblk m c 1 ⟨n, h⟩ : Vec Ideal S512x1024 .f32) (ix2 l q)
      = at2 (MF m c) (512 * (n % 8) + l.val) (1024 * (n / 8 % 4) + q.val) := by
  have hN : n < 128 := lt_of_lt_of_eq h (show cfg0.N = 128 from N_0)
  rw [at2_of_lt _ (by omega) (by omega)]
  unfold iblk
  rw [View.read_apply]
  show V m c main_v22 _ = V m c main_v22 _
  refine congrArg _ (funext fun a => Fin.ext ?_)
  obtain ⟨-, -, e2, e3, -⟩ := idx_facts ⟨n, h⟩
  match a with
  | ⟨0, _⟩ => show win0_1.index ⟨n, h⟩ (0 : Fin 2) * 512 + 1 * l.val = 512 * (n % 8) + l.val; rw [e2]; dsimp only; omega
  | ⟨1, _⟩ => show win0_1.index ⟨n, h⟩ (1 : Fin 2) * 1024 + 1 * q.val = 1024 * (n / 8 % 4) + q.val; rw [e3]; dsimp only; omega

/-- The partial inner product the accumulator holds after point n, at (p, q). -/
def part (c : Dev nD) (n : ℕ) (p q : Fin 1024) : EReal :=
  ∑ s ∈ Finset.range (n % 8 + 1), ∑ l : Fin 512,
    at2 (XF m c) (1024 * (n / 32) + p.val) (512 * s + l.val) * at2 (MF m c) (512 * s + l.val) (1024 * (n / 8 % 4) + q.val)

/-- After the body at point n both the accumulator and the output block's buffer hold that partial inner product. -/
theorem acc_eq (c : Dev nD) : ∀ (n : ℕ) (h : n < cfg0.N) (p q : Fin 1024),
    (outsAt0 m c n h).2 (ix2 p q) = part m c n p q ∧ (outsAt0 m c n h).1 (ix2 p q) = part m c n p q
  | 0, h, p, q => by
    rw [outsAt0_A m c ⟨0, h⟩ rfl, out_A, sout_A]
    have key : k0_pay2 (F := Ideal) (iblk m c 0 ⟨0, h⟩) (iblk m c 1 ⟨0, h⟩) (k0_pay1 (F := Ideal)) (ix2 p q) = part m c 0 p q := by
      rw [pay2_apply, pay1_apply, zero_add]
      unfold part
      rw [show 0 % 8 + 1 = 1 from rfl, Finset.sum_range_one]
      refine Finset.sum_congr rfl fun l _ => ?_
      rw [iblk0_apply, iblk1_apply]
    exact ⟨key, key⟩
  | n + 1, h, p, q => by
    by_cases h0 : (n + 1) % 8 = 0
    · rw [outsAt0_A m c ⟨n + 1, h⟩ h0, out_A, sout_A]
      have key : k0_pay2 (F := Ideal) (iblk m c 0 ⟨n + 1, h⟩) (iblk m c 1 ⟨n + 1, h⟩) (k0_pay1 (F := Ideal)) (ix2 p q) = part m c (n + 1) p q := by
        rw [pay2_apply, pay1_apply, zero_add]
        unfold part
        rw [h0, show 0 + 1 = 1 from rfl, Finset.sum_range_one]
        refine Finset.sum_congr rfl fun l _ => ?_
        rw [iblk0_apply, iblk1_apply, h0]
      exact ⟨key, key⟩
    · rw [outsAt0_B m c ⟨n + 1, h⟩ h0, out_B, sout_B]
      have ih := (acc_eq c n (Nat.lt_of_succ_lt h) p q).1
      have key : k0_pay2 (F := Ideal) (iblk m c 0 ⟨n + 1, h⟩) (iblk m c 1 ⟨n + 1, h⟩) (outsAt0 m c n (Nat.lt_of_succ_lt h)).2 (ix2 p q)
          = part m c (n + 1) p q := by
        rw [pay2_apply, ih]
        unfold part
        have e1 : (n + 1) / 32 = n / 32 := by omega
        have e2 : (n + 1) / 8 % 4 = n / 8 % 4 := by omega
        have e3 : (n + 1) % 8 = n % 8 + 1 := by omega
        rw [e1, e2, e3, Finset.sum_range_succ (n := n % 8 + 1)]
        refine congrArg _ (Finset.sum_congr rfl fun l _ => ?_)
        rw [iblk0_apply, iblk1_apply, e1, e2, e3]
      exact ⟨key, key⟩

/-- The product: entry (a, b) is the inner product of row a of the left operand with column b of the right operand. -/
def prod (c : Dev nD) : (⟨2, ![4096, 4096]⟩ : Shape).Idx → EReal :=
  fun i => ∑ l : Fin 4096, XF m c (ix2 (i 0) l) * MF m c (ix2 l (i 1))

/-- What a point that writes back (step 7) writes is its block of the product. -/
theorem flushed_eq (c : Dev nD) (t : Fin cfg0.N) (hf : (cfg0.win 2).flush t = true) :
    (dats m 0 c).flushed 2 t = ((cfg0.win 2).blk t).view.read (Elt Ideal) (prod m c) := by
  have h7 : t.val % 8 = 7 := (flush0_2 t).mp hf
  have hN : t.val < 128 := lt_of_lt_of_eq t.isLt (show cfg0.N = 128 from N_0)
  obtain ⟨-, -, -, -, e4, e5⟩ := idx_facts t
  show (cfg0.win 2).cut (grid0.coords t) ((dats m 0 c).after 2 t) = _
  rw [after0_2]
  funext j
  obtain ⟨p, q, rfl⟩ : ∃ (p q : Fin 1024), j = ix2 p q := ⟨j 0, j 1, eq_ix2 j⟩
  have ha : 1024 * (t.val / 32) + p.val < 4096 := by omega
  have hb : 1024 * (t.val / 8 % 4) + q.val < 4096 := by omega
  have hemb : ((cfg0.win 2).blk t).view.emb (ix2 p q)
      = (ix2 ⟨1024 * (t.val / 32) + p.val, ha⟩ ⟨1024 * (t.val / 8 % 4) + q.val, hb⟩ : (⟨2, ![4096, 4096]⟩ : Shape).Idx) := by
    funext ax; apply Fin.ext
    match ax with
    | ⟨0, _⟩ => show win0_2.index t (0 : Fin 2) * 1024 + 1 * p.val = 1024 * (t.val / 32) + p.val; rw [e4]; omega
    | ⟨1, _⟩ => show win0_2.index t (1 : Fin 2) * 1024 + 1 * q.val = 1024 * (t.val / 8 % 4) + q.val; rw [e5]; omega
  show (outsAt0 m c t.val t.isLt).1 (ix2 p q) = prod m c (((cfg0.win 2).blk t).view.emb (ix2 p q))
  rw [hemb, (acc_eq m c t.val t.isLt p q).2]
  unfold part prod
  rw [h7]
  exact tiles_eq (XF m c) (MF m c) ⟨1024 * (t.val / 32) + p.val, ha⟩ ⟨1024 * (t.val / 8 % 4) + q.val, hb⟩ 512 8 rfl

/-- An index of the array is in point t's block iff each coordinate is in the block's range. -/
theorem mem_blk2 (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v25).slice (win0_2.rect t)).set ↔ _
  rw [View.set_slice_whole, Rect.mem_set_unit]
  exact Iff.rfl

/-- The product array after the region. -/
theorem final2 (c : Dev nD) : (dats m 0 c).arrAt 2 cfg0.N = prod m c :=
  (dats m 0 c).arrAt_eq_of_cover 2 (prod m c) (flushed_eq m c) fun i => by
    have hi0 : (i 0).val < 4096 := (i 0).isLt
    have hi1 : (i 1).val < 4096 := (i 1).isLt
    have hlt : (i 0).val / 1024 * 32 + (i 1).val / 1024 * 8 + 7 < cfg0.N := by rw [show cfg0.N = 128 from N_0]; omega
    refine ⟨⟨(i 0).val / 1024 * 32 + (i 1).val / 1024 * 8 + 7, hlt⟩, (flush0_2 _).mpr (by dsimp only; omega), ?_⟩
    rw [mem_blk2]
    obtain ⟨-, -, -, -, e4, e5⟩ := idx_facts ⟨(i 0).val / 1024 * 32 + (i 1).val / 1024 * 8 + 7, hlt⟩
    intro a
    match a with
    | ⟨0, _⟩ =>
      show win0_2.index _ (0 : Fin 2) * 1024 ≤ (i 0).val ∧ (i 0).val < win0_2.index _ (0 : Fin 2) * 1024 + 1024
      rw [e4]; dsimp only; omega
    | ⟨1, _⟩ =>
      show win0_2.index _ (1 : Fin 2) * 1024 ≤ (i 1).val ∧ (i 1).val < win0_2.index _ (1 : Fin 2) * 1024 + 1024
      rw [e5]; dsimp only; omega

end Cert.KernelIdeal.Fr

end
-- ==== Proof.LibRank3.lean ====
/-
  Stacks of matrices read at an index given by coordinates.

  A rank-three array [a, b, c] is a stack of `a` matrices. The layout operations that move between
  such a stack, its rows flattened [a, b·c], and the columns and rows of its matrices are read here
  at indices written `ix2 r l`, `ix3 r i j`:

  * a cast [a, n] → [a, b, c] with n = b·c reads (r, i, j) at (r, i·c + j), and back;
  * a cast [a, b] → [a, b, 1] (a column per matrix) and [a, b] → [a, 1, b] (a row per matrix), and back;
  * a broadcast of one matrix [1, b, c] over the stack, of a column [a, b, 1] along the rows, of a row
    [a, 1, c] down the columns;
  * the slice of one entry of the last axis, [a, b, c] → [a, b, 1];
  * four columns [a, b, 1] laid side by side into [a, b, 4]: entry (r, i, c) is column c's entry (r, i);
  * the sum over the last axis, at the extended reals: entry (r, i) is the sum over j of (r, i, j).
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- [a, n] cast to [a, b, c], n = b·c: entry (r, i, j) is the flat row's entry i·c + j. -/
theorem cast_flat_to_stack {a n b c : ℕ} (hn : n = b * c) (x : (⟨2, ![a, n]⟩ : Shape).Idx → α)
    (h : (⟨2, ![a, n]⟩ : Shape).ShapeCasts ⟨3, ![a, b, c]⟩) (r : Fin a) (i : Fin b) (j : Fin c) (hl : i.val * c + j.val < n) :
    shapeCast ⟨3, ![a, b, c]⟩ x h (ix3 r i j) = x (ix2 r ⟨i.val * c + j.val, hl⟩) :=
  shapeCast_apply x h _ _ (by
    rw [Shape.rowMajor_val_three, Shape.rowMajor_val_two]
    show r.val * n + (i.val * c + j.val) = (r.val * b + i.val) * c + j.val
    subst hn; ring)

/-- [a, b, c] cast to [a, n], n = b·c: the flat row's entry i·c + j is entry (r, i, j). -/
theorem cast_stack_to_flat {a n b c : ℕ} (hn : n = b * c) (x : (⟨3, ![a, b, c]⟩ : Shape).Idx → α)
    (h : (⟨3, ![a, b, c]⟩ : Shape).ShapeCasts ⟨2, ![a, n]⟩) (r : Fin a) (i : Fin b) (j : Fin c) (hl : i.val * c + j.val < n) :
    shapeCast ⟨2, ![a, n]⟩ x h (ix2 r ⟨i.val * c + j.val, hl⟩) = x (ix3 r i j) :=
  shapeCast_apply x h _ _ (by
    rw [Shape.rowMajor_val_three, Shape.rowMajor_val_two]
    show (r.val * b + i.val) * c + j.val = r.val * n + (i.val * c + j.val)
    subst hn; ring)

/-- [a, b] cast to [a, b, 1]: a column per matrix. -/
theorem cast_to_col {a b : ℕ} (x : (⟨2, ![a, b]⟩ : Shape).Idx → α)
    (h : (⟨2, ![a, b]⟩ : Shape).ShapeCasts ⟨3, ![a, b, 1]⟩) (r : Fin a) (i : Fin b) (u : Fin 1) :
    shapeCast ⟨3, ![a, b, 1]⟩ x h (ix3 r i u) = x (ix2 r i) :=
  shapeCast_apply x h _ _ (by
    have hu : u.val = 0 := by omega
    rw [Shape.rowMajor_val_three, Shape.rowMajor_val_two]
    show r.val * b + i.val = (r.val * b + i.val) * 1 + u.val
    rw [hu]; ring)

/-- [a, b, 1] cast to [a, b]. -/
theorem cast_of_col {a b : ℕ} (x : (⟨3, ![a, b, 1]⟩ : Shape).Idx → α)
    (h : (⟨3, ![a, b, 1]⟩ : Shape).ShapeCasts ⟨2, ![a, b]⟩) (r : Fin a) (i : Fin b) :
    shapeCast ⟨2, ![a, b]⟩ x h (ix2 r i) = x (ix3 r i (0 : Fin 1)) :=
  shapeCast_apply x h _ _ (by
    rw [Shape.rowMajor_val_three, Shape.rowMajor_val_two]
    show (r.val * b + i.val) * 1 + 0 = r.val * b + i.val
    ring)

/-- [a, b] cast to [a, 1, b]: a row per matrix. -/
theorem cast_to_row {a b : ℕ} (x : (⟨2, ![a, b]⟩ : Shape).Idx → α)
    (h : (⟨2, ![a, b]⟩ : Shape).ShapeCasts ⟨3, ![a, 1, b]⟩) (r : Fin a) (u : Fin 1) (j : Fin b) :
    shapeCast ⟨3, ![a, 1, b]⟩ x h (ix3 r u j) = x (ix2 r j) :=
  shapeCast_apply x h _ _ (by
    have hu : u.val = 0 := by omega
    rw [Shape.rowMajor_val_three, Shape.rowMajor_val_two]
    show r.val * b + j.val = (r.val * 1 + u.val) * b + j.val
    rw [hu]; ring)

/-- One matrix [1, b, c] broadcast over a stack. -/
theorem bcast_matrix {a b c : ℕ} (x : (⟨3, ![1, b, c]⟩ : Shape).Idx → α) (h : (⟨3, ![1, b, c]⟩ : Shape).Broadcasts ⟨3, ![a, b, c]⟩)
    (r : Fin a) (i : Fin b) (j : Fin c) : broadcastTo ⟨3, ![a, b, c]⟩ x h (ix3 r i j) = x (ix3 (0 : Fin 1) i j) := by
  refine broadcastTo_apply x h (ix3 r i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- A column [a, b, 1] broadcast along the rows of each matrix. -/
theorem bcast_col {a b c : ℕ} (x : (⟨3, ![a, b, 1]⟩ : Shape).Idx → α) (h : (⟨3, ![a, b, 1]⟩ : Shape).Broadcasts ⟨3, ![a, b, c]⟩)
    (r : Fin a) (i : Fin b) (j : Fin c) : broadcastTo ⟨3, ![a, b, c]⟩ x h (ix3 r i j) = x (ix3 r i (0 : Fin 1)) := by
  refine broadcastTo_apply x h (ix3 r i j) (ix3 r i (0 : Fin 1)) fun ax => ?_
  match ax with
  | ⟨0, _⟩ =>
    show r.val = if a = 1 then 0 else r.val
    split
    · have := r.isLt; omega
    · rfl
  | ⟨1, _⟩ =>
    show i.val = if b = 1 then 0 else i.val
    split
    · have := i.isLt; omega
    · rfl
  | ⟨2, _⟩ => rfl

/-- A row [a, 1, c] broadcast down the columns of each matrix. -/
theorem bcast_row {a b c : ℕ} (x : (⟨3, ![a, 1, c]⟩ : Shape).Idx → α) (h : (⟨3, ![a, 1, c]⟩ : Shape).Broadcasts ⟨3, ![a, b, c]⟩)
    (r : Fin a) (i : Fin b) (j : Fin c) : broadcastTo ⟨3, ![a, b, c]⟩ x h (ix3 r i j) = x (ix3 r (0 : Fin 1) j) := by
  refine broadcastTo_apply x h (ix3 r i j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- The slice of entry `o` of the last axis. -/
theorem slice_last {a b c : ℕ} (o : Fin c) (x : (⟨3, ![a, b, c]⟩ : Shape).Idx → α)
    (h : (⟨3, ![a, b, c]⟩ : Shape).Slices ![0, 0, o.val] ⟨3, ![a, b, 1]⟩) (r : Fin a) (i : Fin b) (u : Fin 1) :
    extractStridedSlice ⟨3, ![a, b, 1]⟩ ![0, 0, o.val] x h (ix3 r i u) = x (ix3 r i o) := by
  refine extractStridedSlice_apply _ x h (ix3 r i u) (ix3 r i o) fun ax => ?_
  match ax with
  | ⟨0, _⟩ => show r.val = 0 + r.val; omega
  | ⟨1, _⟩ => show i.val = 0 + i.val; omega
  | ⟨2, _⟩ => show o.val = o.val + u.val; omega

/-- The sum over the last axis of a stack, at the extended reals. -/
theorem sum_last {a b c : ℕ} {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (r : Fin a) (i : Fin b) :
    multiReduction .add [(2 : Fin 3)] ⟨2, ![a, b]⟩ src acc h hφ hacc (ix2 r i) = ∑ j : Fin c, src (ix3 r i j) := by
  refine (Ideal.multiReduction_add_single src acc h hφ hacc (ix2 r i)).trans ?_
  refine Finset.sum_congr rfl fun j _ => congrArg src (funext fun ax => Fin.ext ?_)
  rw [Shape.Reduces.lift_val]
  match ax with
  | ⟨0, _⟩ => rfl
  | ⟨1, _⟩ => rfl
  | ⟨2, _⟩ => rfl

/-- Four columns [a, b, 1] laid side by side along the last axis: entry (r, i, c) is column `c`'s entry (r, i). -/
theorem concat4_cols {a b : ℕ} (x0 x1 x2 x3 : (⟨3, ![a, b, 1]⟩ : Shape).Idx → α)
    (h : Shape.Concatenates (([⟨⟨3, ![a, b, 1]⟩, x0⟩, ⟨⟨3, ![a, b, 1]⟩, x1⟩, ⟨⟨3, ![a, b, 1]⟩, x2⟩, ⟨⟨3, ![a, b, 1]⟩, x3⟩] :
      List ((s : Shape) × (s.Idx → α))).map (·.1)) ⟨3, ![a, b, 4]⟩ (2 : Fin 3))
    (r : Fin a) (i : Fin b) (c : Fin 4) :
    concatenate ⟨3, ![a, b, 4]⟩ (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i c)
      = (![x0, x1, x2, x3] c) (ix3 r i (0 : Fin 1)) := by
  have hi : ∀ (c : Fin 4) (bx : Fin 3), bx.cast (rfl : (3 : ℕ) = 3) ≠ (2 : Fin 3) →
      ((ix3 r i (0 : Fin 1) : (⟨3, ![a, b, 1]⟩ : Shape).Idx) bx).val = ((ix3 r i c : (⟨3, ![a, b, 4]⟩ : Shape).Idx) (bx.cast rfl)).val := by
    intro c bx hb
    match bx with
    | ⟨0, _⟩ => rfl
    | ⟨1, _⟩ => rfl
    | ⟨2, _⟩ => exact absurd rfl hb
  match c with
  | ⟨0, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨0, hc⟩) 0 (by simp) ⟨3, ![a, b, 1]⟩ x0 rfl rfl 0 rfl (ix3 r i (0 : Fin 1)) (hi _) rfl
  | ⟨1, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨1, hc⟩) 1 (by simp) ⟨3, ![a, b, 1]⟩ x1 rfl rfl 1 rfl (ix3 r i (0 : Fin 1)) (hi _) rfl
  | ⟨2, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨2, hc⟩) 2 (by simp) ⟨3, ![a, b, 1]⟩ x2 rfl rfl 2 rfl (ix3 r i (0 : Fin 1)) (hi _) rfl
  | ⟨3, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨3, hc⟩) 3 (by simp) ⟨3, ![a, b, 1]⟩ x3 rfl rfl 3 rfl (ix3 r i (0 : Fin 1)) (hi _) rfl

end Cert.LibRank3
-- ==== Proof.LibConcat4.lean ====
/-
  Four matrices of one shape [a, b] joined into one, read at an index. Independent of any program.

  Joined side by side along the columns, the result [a, n] with n = 4·b holds at (r, b·c + o) the entry (r, o) of matrix c.
  Joined one above the other along the rows, the result [n, b] with n = 4·a holds at (a·c + r, o) the entry (r, o) of matrix c.
  In both, c is the block's number and (r, o) the index inside the block.
-/
import Idealize.ShloMosaic.Lib.Pipeline.Value
import Idealize.ShloMosaic.Lib.ValueIdx

namespace Cert.LibConcat4

open Idealize.ShloMosaic Idealize.ShloMosaic.ValueIdx

variable {α : Type}

/-- Four matrices side by side: entry (r, b·c + o) is matrix c's entry (r, o). -/
theorem side_by_side {a b n : ℕ} (x0 x1 x2 x3 : (⟨2, ![a, b]⟩ : Shape).Idx → α)
    (h : Shape.Concatenates (([⟨⟨2, ![a, b]⟩, x0⟩, ⟨⟨2, ![a, b]⟩, x1⟩, ⟨⟨2, ![a, b]⟩, x2⟩, ⟨⟨2, ![a, b]⟩, x3⟩] :
      List ((s : Shape) × (s.Idx → α))).map (·.1)) ⟨2, ![a, n]⟩ (1 : Fin 2))
    (r : Fin a) (c : Fin 4) (o : Fin b) (hl : b * c.val + o.val < n) :
    concatenate ⟨2, ![a, n]⟩ (1 : Fin 2) [⟨⟨2, ![a, b]⟩, x0⟩, ⟨⟨2, ![a, b]⟩, x1⟩, ⟨⟨2, ![a, b]⟩, x2⟩, ⟨⟨2, ![a, b]⟩, x3⟩] h (ix2 r ⟨b * c.val + o.val, hl⟩)
      = (![x0, x1, x2, x3] c) (ix2 r o) := by
  have hi : ∀ (l : Fin n) (bx : Fin 2), bx.cast (rfl : (2 : ℕ) = 2) ≠ (1 : Fin 2) →
      ((ix2 r o : (⟨2, ![a, b]⟩ : Shape).Idx) bx).val = ((ix2 r l : (⟨2, ![a, n]⟩ : Shape).Idx) (bx.cast rfl)).val := by
    intro l bx hb
    match bx with
    | ⟨0, _⟩ => rfl
    | ⟨1, _⟩ => exact absurd rfl hb
  match c with
  | ⟨0, hc⟩ => exact concatenate_apply_piece (1 : Fin 2) [⟨⟨2, ![a, b]⟩, x0⟩, ⟨⟨2, ![a, b]⟩, x1⟩, ⟨⟨2, ![a, b]⟩, x2⟩, ⟨⟨2, ![a, b]⟩, x3⟩] h (ix2 r ⟨b * 0 + o.val, hl⟩) 0 (by simp) ⟨2, ![a, b]⟩ x0 rfl rfl 0 rfl (ix2 r o) (hi _) (by show 0 + o.val = b * 0 + o.val; omega)
  | ⟨1, hc⟩ => exact concatenate_apply_piece (1 : Fin 2) [⟨⟨2, ![a, b]⟩, x0⟩, ⟨⟨2, ![a, b]⟩, x1⟩, ⟨⟨2, ![a, b]⟩, x2⟩, ⟨⟨2, ![a, b]⟩, x3⟩] h (ix2 r ⟨b * 1 + o.val, hl⟩) 1 (by simp) ⟨2, ![a, b]⟩ x1 rfl rfl (b + 0) rfl (ix2 r o) (hi _) (by show (b + 0) + o.val = b * 1 + o.val; omega)
  | ⟨2, hc⟩ => exact concatenate_apply_piece (1 : Fin 2) [⟨⟨2, ![a, b]⟩, x0⟩, ⟨⟨2, ![a, b]⟩, x1⟩, ⟨⟨2, ![a, b]⟩, x2⟩, ⟨⟨2, ![a, b]⟩, x3⟩] h (ix2 r ⟨b * 2 + o.val, hl⟩) 2 (by simp) ⟨2, ![a, b]⟩ x2 rfl rfl (b + (b + 0)) rfl (ix2 r o) (hi _) (by show (b + (b + 0)) + o.val = b * 2 + o.val; omega)
  | ⟨3, hc⟩ => exact concatenate_apply_piece (1 : Fin 2) [⟨⟨2, ![a, b]⟩, x0⟩, ⟨⟨2, ![a, b]⟩, x1⟩, ⟨⟨2, ![a, b]⟩, x2⟩, ⟨⟨2, ![a, b]⟩, x3⟩] h (ix2 r ⟨b * 3 + o.val, hl⟩) 3 (by simp) ⟨2, ![a, b]⟩ x3 rfl rfl (b + (b + (b + 0))) rfl (ix2 r o) (hi _) (by show (b + (b + (b + 0))) + o.val = b * 3 + o.val; omega)

/-- Four matrices one above the other: entry (a·c + r, o) is matrix c's entry (r, o). -/
theorem stacked {a b n : ℕ} (x0 x1 x2 x3 : (⟨2, ![a, b]⟩ : Shape).Idx → α)
    (h : Shape.Concatenates (([⟨⟨2, ![a, b]⟩, x0⟩, ⟨⟨2, ![a, b]⟩, x1⟩, ⟨⟨2, ![a, b]⟩, x2⟩, ⟨⟨2, ![a, b]⟩, x3⟩] :
      List ((s : Shape) × (s.Idx → α))).map (·.1)) ⟨2, ![n, b]⟩ (0 : Fin 2))
    (c : Fin 4) (r : Fin a) (o : Fin b) (hl : a * c.val + r.val < n) :
    concatenate ⟨2, ![n, b]⟩ (0 : Fin 2) [⟨⟨2, ![a, b]⟩, x0⟩, ⟨⟨2, ![a, b]⟩, x1⟩, ⟨⟨2, ![a, b]⟩, x2⟩, ⟨⟨2, ![a, b]⟩, x3⟩] h (ix2 ⟨a * c.val + r.val, hl⟩ o)
      = (![x0, x1, x2, x3] c) (ix2 r o) := by
  have hi : ∀ (l : Fin n) (bx : Fin 2), bx.cast (rfl : (2 : ℕ) = 2) ≠ (0 : Fin 2) →
      ((ix2 r o : (⟨2, ![a, b]⟩ : Shape).Idx) bx).val = ((ix2 l o : (⟨2, ![n, b]⟩ : Shape).Idx) (bx.cast rfl)).val := by
    intro l bx hb
    match bx with
    | ⟨0, _⟩ => exact absurd rfl hb
    | ⟨1, _⟩ => rfl
  match c with
  | ⟨0, hc⟩ => exact concatenate_apply_piece (0 : Fin 2) [⟨⟨2, ![a, b]⟩, x0⟩, ⟨⟨2, ![a, b]⟩, x1⟩, ⟨⟨2, ![a, b]⟩, x2⟩, ⟨⟨2, ![a, b]⟩, x3⟩] h (ix2 ⟨a * 0 + r.val, hl⟩ o) 0 (by simp) ⟨2, ![a, b]⟩ x0 rfl rfl 0 rfl (ix2 r o) (hi _) (by show 0 + r.val = a * 0 + r.val; omega)
  | ⟨1, hc⟩ => exact concatenate_apply_piece (0 : Fin 2) [⟨⟨2, ![a, b]⟩, x0⟩, ⟨⟨2, ![a, b]⟩, x1⟩, ⟨⟨2, ![a, b]⟩, x2⟩, ⟨⟨2, ![a, b]⟩, x3⟩] h (ix2 ⟨a * 1 + r.val, hl⟩ o) 1 (by simp) ⟨2, ![a, b]⟩ x1 rfl rfl (a + 0) rfl (ix2 r o) (hi _) (by show (a + 0) + r.val = a * 1 + r.val; omega)
  | ⟨2, hc⟩ => exact concatenate_apply_piece (0 : Fin 2) [⟨⟨2, ![a, b]⟩, x0⟩, ⟨⟨2, ![a, b]⟩, x1⟩, ⟨⟨2, ![a, b]⟩, x2⟩, ⟨⟨2, ![a, b]⟩, x3⟩] h (ix2 ⟨a * 2 + r.val, hl⟩ o) 2 (by simp) ⟨2, ![a, b]⟩ x2 rfl rfl (a + (a + 0)) rfl (ix2 r o) (hi _) (by show (a + (a + 0)) + r.val = a * 2 + r.val; omega)
  | ⟨3, hc⟩ => exact concatenate_apply_piece (0 : Fin 2) [⟨⟨2, ![a, b]⟩, x0⟩, ⟨⟨2, ![a, b]⟩, x1⟩, ⟨⟨2, ![a, b]⟩, x2⟩, ⟨⟨2, ![a, b]⟩, x3⟩] h (ix2 ⟨a * 3 + r.val, hl⟩ o) 3 (by simp) ⟨2, ![a, b]⟩ x3 rfl rfl (a + (a + (a + 0))) rfl (ix2 r o) (hi _) (by show (a + (a + (a + 0))) + r.val = a * 3 + r.val; omega)

end Cert.LibConcat4
-- ==== Proof.OperandLayout.lean ====
/-
  The two matrix operands the host lines before the region build, read at an entry.

  The left operand is x [4096, 1024, 4] with its last two axes exchanged and then flattened: its entry
  (b, 1024·s + i) is x (b, i, s): component s of input feature i of row b.

  The right operand is a 4 x 4 arrangement of [1024, 1024] blocks, block (s, c) being plus or minus the transpose of one
  component of the weight [1024, 1024, 4]: its entry (1024·s + i, 1024·c + o) is the coefficient with which component s
  of the input feature i enters component c of output feature o in the Hamilton product — the table `ham` below.
-/
import proofs.«116105_j68238440399557_1_alg».proof.Proof.Accumulation
import proofs.«116105_j68238440399557_1_alg».proof.Proof.LibRank3
import proofs.«116105_j68238440399557_1_alg».proof.Proof.LibConcat4
import Idealize.ShloMosaic.Lib.StableHlo.Run
import Idealize.ShloMosaic.Lib.Pipeline.Value

set_option maxRecDepth 16384

noncomputable section

namespace Cert.KernelIdeal.Fr

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)
open Cert.Quat

variable (m : (ℓ : Loc nD τ sig) → Buf (Elt Ideal) ℓ) (ρ : Dev nD → PrngReg)

open Idealize.ShloMosaic.StableHlo

/-! ## The left operand -/

def xflat (x : S4096x1024x4.Idx → EReal) : (⟨2, ![4096, 4096]⟩ : Shape).Idx → EReal :=
  shapeCast S4096x4096 (transpose S4096x4x1024 [0, 2, 1] x transposes_S4096x1024x4_S4096x4x1024_0_2_1) shapeCasts_S4096x4x1024_S4096x4096

theorem XF_term (c : Dev nD) : XF m c = xflat (m ((c : Thread nD τ).loc main_arg0)) := by
  show StableHlo.after (hostOps0 (F := Ideal)) (fun b => m (c, b)) (Proc.devRef .tc main_v24) = _
  after_results_simp
  rfl

theorem xflat_apply (x : S4096x1024x4.Idx → EReal) (b : Fin 4096) (s : Fin 4) (i : Fin 1024) (h : 1024 * s.val + i.val < 4096) :
    xflat x (ix2 b ⟨1024 * s.val + i.val, h⟩) = x (ix3 b i s) := by
  have e : (⟨1024 * s.val + i.val, h⟩ : Fin 4096) = ⟨s.val * 1024 + i.val, by omega⟩ := Fin.ext (by show 1024 * s.val + i.val = s.val * 1024 + i.val; omega)
  rw [e]
  unfold xflat
  refine (Cert.LibRank3.cast_stack_to_flat (a := 4096) (n := 4096) (b := 4) (c := 1024) rfl _ _ b s i _).trans ?_
  exact transpose_apply [0, 2, 1] x _ (ix3 b s i) (ix3 b i s) (fun bx => match bx with | ⟨0, _⟩ => rfl | ⟨1, _⟩ => rfl | ⟨2, _⟩ => rfl)

/-! ## The right operand -/

/-- Component 0 of the weight, transposed: entry (i, o) is w (o, i, 0). -/
def wT0 (w : S1024x1024x4.Idx → EReal) : S1024x1024.Idx → EReal :=
  transpose S1024x1024 [1, 0] (shapeCast S1024x1024 (extractStridedSlice S1024x1024x1 ![0, 0, 0] w slices_S1024x1024x4_S1024x1024x1_0_0_0) shapeCasts_S1024x1024x1_S1024x1024) transposes_S1024x1024_S1024x1024_1_0

theorem wT0_apply (w : S1024x1024x4.Idx → EReal) (i o : Fin 1024) : wT0 w (ix2 i o) = w (ix3 o i 0) := by
  unfold wT0
  refine (transpose_apply [1, 0] _ _ (ix2 i o) (ix2 o i) (fun bx => match bx with | ⟨0, _⟩ => rfl | ⟨1, _⟩ => rfl)).trans ?_
  refine (Cert.LibRank3.cast_of_col _ _ o i).trans ?_
  exact Cert.LibRank3.slice_last (a := 1024) (b := 1024) (c := 4) 0 w slices_S1024x1024x4_S1024x1024x1_0_0_0 o i 0

/-- Component 1 of the weight, transposed: entry (i, o) is w (o, i, 1). -/
def wT1 (w : S1024x1024x4.Idx → EReal) : S1024x1024.Idx → EReal :=
  transpose S1024x1024 [1, 0] (shapeCast S1024x1024 (extractStridedSlice S1024x1024x1 ![0, 0, 1] w slices_S1024x1024x4_S1024x1024x1_0_0_1) shapeCasts_S1024x1024x1_S1024x1024) transposes_S1024x1024_S1024x1024_1_0

theorem wT1_apply (w : S1024x1024x4.Idx → EReal) (i o : Fin 1024) : wT1 w (ix2 i o) = w (ix3 o i 1) := by
  unfold wT1
  refine (transpose_apply [1, 0] _ _ (ix2 i o) (ix2 o i) (fun bx => match bx with | ⟨0, _⟩ => rfl | ⟨1, _⟩ => rfl)).trans ?_
  refine (Cert.LibRank3.cast_of_col _ _ o i).trans ?_
  exact Cert.LibRank3.slice_last (a := 1024) (b := 1024) (c := 4) 1 w slices_S1024x1024x4_S1024x1024x1_0_0_1 o i 0

/-- Component 2 of the weight, transposed: entry (i, o) is w (o, i, 2). -/
def wT2 (w : S1024x1024x4.Idx → EReal) : S1024x1024.Idx → EReal :=
  transpose S1024x1024 [1, 0] (shapeCast S1024x1024 (extractStridedSlice S1024x1024x1 ![0, 0, 2] w slices_S1024x1024x4_S1024x1024x1_0_0_2) shapeCasts_S1024x1024x1_S1024x1024) transposes_S1024x1024_S1024x1024_1_0

theorem wT2_apply (w : S1024x1024x4.Idx → EReal) (i o : Fin 1024) : wT2 w (ix2 i o) = w (ix3 o i 2) := by
  unfold wT2
  refine (transpose_apply [1, 0] _ _ (ix2 i o) (ix2 o i) (fun bx => match bx with | ⟨0, _⟩ => rfl | ⟨1, _⟩ => rfl)).trans ?_
  refine (Cert.LibRank3.cast_of_col _ _ o i).trans ?_
  exact Cert.LibRank3.slice_last (a := 1024) (b := 1024) (c := 4) 2 w slices_S1024x1024x4_S1024x1024x1_0_0_2 o i 0

/-- Component 3 of the weight, transposed: entry (i, o) is w (o, i, 3). -/
def wT3 (w : S1024x1024x4.Idx → EReal) : S1024x1024.Idx → EReal :=
  transpose S1024x1024 [1, 0] (shapeCast S1024x1024 (extractStridedSlice S1024x1024x1 ![0, 0, 3] w slices_S1024x1024x4_S1024x1024x1_0_0_3) shapeCasts_S1024x1024x1_S1024x1024) transposes_S1024x1024_S1024x1024_1_0

theorem wT3_apply (w : S1024x1024x4.Idx → EReal) (i o : Fin 1024) : wT3 w (ix2 i o) = w (ix3 o i 3) := by
  unfold wT3
  refine (transpose_apply [1, 0] _ _ (ix2 i o) (ix2 o i) (fun bx => match bx with | ⟨0, _⟩ => rfl | ⟨1, _⟩ => rfl)).trans ?_
  refine (Cert.LibRank3.cast_of_col _ _ o i).trans ?_
  exact Cert.LibRank3.slice_last (a := 1024) (b := 1024) (c := 4) 3 w slices_S1024x1024x4_S1024x1024x1_0_0_3 o i 0

def mrow0 (w : S1024x1024x4.Idx → EReal) : S1024x4096.Idx → EReal :=
  concatenate S1024x4096 1 [⟨S1024x1024, wT0 w⟩, ⟨S1024x1024, wT1 w⟩, ⟨S1024x1024, wT2 w⟩, ⟨S1024x1024, wT3 w⟩] concatenates_S1024x1024_S1024x1024_S1024x1024_S1024x1024_S1024x4096_d1

def mrow1 (w : S1024x1024x4.Idx → EReal) : S1024x4096.Idx → EReal :=
  concatenate S1024x4096 1 [⟨S1024x1024, Host.negf (F := Ideal) (φ := .f32) (wT1 w)⟩, ⟨S1024x1024, wT0 w⟩, ⟨S1024x1024, Host.negf (F := Ideal) (φ := .f32) (wT3 w)⟩, ⟨S1024x1024, wT2 w⟩] concatenates_S1024x1024_S1024x1024_S1024x1024_S1024x1024_S1024x4096_d1

def mrow2 (w : S1024x1024x4.Idx → EReal) : S1024x4096.Idx → EReal :=
  concatenate S1024x4096 1 [⟨S1024x1024, Host.negf (F := Ideal) (φ := .f32) (wT2 w)⟩, ⟨S1024x1024, wT3 w⟩, ⟨S1024x1024, wT0 w⟩, ⟨S1024x1024, Host.negf (F := Ideal) (φ := .f32) (wT1 w)⟩] concatenates_S1024x1024_S1024x1024_S1024x1024_S1024x1024_S1024x4096_d1

def mrow3 (w : S1024x1024x4.Idx → EReal) : S1024x4096.Idx → EReal :=
  concatenate S1024x4096 1 [⟨S1024x1024, Host.negf (F := Ideal) (φ := .f32) (wT3 w)⟩, ⟨S1024x1024, Host.negf (F := Ideal) (φ := .f32) (wT2 w)⟩, ⟨S1024x1024, wT1 w⟩, ⟨S1024x1024, wT0 w⟩] concatenates_S1024x1024_S1024x1024_S1024x1024_S1024x1024_S1024x4096_d1

def mfull (w : S1024x1024x4.Idx → EReal) : (⟨2, ![4096, 4096]⟩ : Shape).Idx → EReal :=
  concatenate S4096x4096 0 [⟨S1024x4096, mrow0 w⟩, ⟨S1024x4096, mrow1 w⟩, ⟨S1024x4096, mrow2 w⟩, ⟨S1024x4096, mrow3 w⟩] concatenates_S1024x4096_S1024x4096_S1024x4096_S1024x4096_S4096x4096_d0

/-! ## The host lines before the region, in three stretches -/

/-- Reads a buffer after a literal list of host operations: each operation's result at its own buffer is its function of
    the operands' contents, and at any other buffer what was there before. -/
macro "host_rw" : tactic =>
  `(tactic| (simp only [StableHlo.after_cons, StableHlo.after_nil]
             repeat (first
               | (rw [StableHlo.unary_result_ne]; rotate_left; decide)
               | (rw [StableHlo.reshape_result_ne]; rotate_left; decide)
               | (rw [StableHlo.nary_result_ne]; rotate_left; decide)
               | rw [StableHlo.unary_result] | rw [StableHlo.reshape_result] | rw [StableHlo.nary4_result])))

/-- Operations run one stretch after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The weight's four components taken apart and transposed. -/
abbrev stretch1 : List (HloOp τ sig (Elt Ideal)) :=
  [ StableHlo.unary main_arg1 main_v0 ((extractStridedSlice S1024x1024x1 ![0, 0, 0] · slices_S1024x1024x4_S1024x1024x1_0_0_0) : (⟨S1024x1024x4, .f32⟩ : BufTy).Contents (Elt Ideal) → (⟨S1024x1024x1, .f32⟩ : BufTy).Contents (Elt Ideal)),
    StableHlo.reshape main_v0 main_v1 rfl shapeCasts_S1024x1024x1_S1024x1024,
    StableHlo.unary main_arg1 main_v2 ((extractStridedSlice S1024x1024x1 ![0, 0, 1] · slices_S1024x1024x4_S1024x1024x1_0_0_1) : (⟨S1024x1024x4, .f32⟩ : BufTy).Contents (Elt Ideal) → (⟨S1024x1024x1, .f32⟩ : BufTy).Contents (Elt Ideal)),
    StableHlo.reshape main_v2 main_v3 rfl shapeCasts_S1024x1024x1_S1024x1024,
    StableHlo.unary main_arg1 main_v4 ((extractStridedSlice S1024x1024x1 ![0, 0, 2] · slices_S1024x1024x4_S1024x1024x1_0_0_2) : (⟨S1024x1024x4, .f32⟩ : BufTy).Contents (Elt Ideal) → (⟨S1024x1024x1, .f32⟩ : BufTy).Contents (Elt Ideal)),
    StableHlo.reshape main_v4 main_v5 rfl shapeCasts_S1024x1024x1_S1024x1024,
    StableHlo.unary main_arg1 main_v6 ((extractStridedSlice S1024x1024x1 ![0, 0, 3] · slices_S1024x1024x4_S1024x1024x1_0_0_3) : (⟨S1024x1024x4, .f32⟩ : BufTy).Contents (Elt Ideal) → (⟨S1024x1024x1, .f32⟩ : BufTy).Contents (Elt Ideal)),
    StableHlo.reshape main_v6 main_v7 rfl shapeCasts_S1024x1024x1_S1024x1024,
    StableHlo.unary main_v1 main_v8 ((transpose S1024x1024 [1, 0] · transposes_S1024x1024_S1024x1024_1_0) : (⟨S1024x1024, .f32⟩ : BufTy).Contents (Elt Ideal) → (⟨S1024x1024, .f32⟩ : BufTy).Contents (Elt Ideal)),
    StableHlo.unary main_v3 main_v9 ((transpose S1024x1024 [1, 0] · transposes_S1024x1024_S1024x1024_1_0) : (⟨S1024x1024, .f32⟩ : BufTy).Contents (Elt Ideal) → (⟨S1024x1024, .f32⟩ : BufTy).Contents (Elt Ideal)),
    StableHlo.unary main_v5 main_v10 ((transpose S1024x1024 [1, 0] · transposes_S1024x1024_S1024x1024_1_0) : (⟨S1024x1024, .f32⟩ : BufTy).Contents (Elt Ideal) → (⟨S1024x1024, .f32⟩ : BufTy).Contents (Elt Ideal)),
    StableHlo.unary main_v7 main_v11 ((transpose S1024x1024 [1, 0] · transposes_S1024x1024_S1024x1024_1_0) : (⟨S1024x1024, .f32⟩ : BufTy).Contents (Elt Ideal) → (⟨S1024x1024, .f32⟩ : BufTy).Contents (Elt Ideal)) ]
/-- The negated copies, and the four block rows. -/
abbrev stretch2 : List (HloOp τ sig (Elt Ideal)) :=
  [ StableHlo.nary ![main_v8, main_v9, main_v10, main_v11] main_v12 (fun u => concatenate S1024x4096 1 [⟨S1024x1024, u 0⟩, ⟨S1024x1024, u 1⟩, ⟨S1024x1024, u 2⟩, ⟨S1024x1024, u 3⟩] concatenates_S1024x1024_S1024x1024_S1024x1024_S1024x1024_S1024x4096_d1),
    StableHlo.unary main_v9 main_v13 (Host.negf (F := Ideal) (s := S1024x1024) (φ := .f32)),
    StableHlo.unary main_v11 main_v14 (Host.negf (F := Ideal) (s := S1024x1024) (φ := .f32)),
    StableHlo.nary ![main_v13, main_v8, main_v14, main_v10] main_v15 (fun u => concatenate S1024x4096 1 [⟨S1024x1024, u 0⟩, ⟨S1024x1024, u 1⟩, ⟨S1024x1024, u 2⟩, ⟨S1024x1024, u 3⟩] concatenates_S1024x1024_S1024x1024_S1024x1024_S1024x1024_S1024x4096_d1),
    StableHlo.unary main_v10 main_v16 (Host.negf (F := Ideal) (s := S1024x1024) (φ := .f32)),
    StableHlo.unary main_v9 main_v17 (Host.negf (F := Ideal) (s := S1024x1024) (φ := .f32)),
    StableHlo.nary ![main_v16, main_v11, main_v8, main_v17] main_v18 (fun u => concatenate S1024x4096 1 [⟨S1024x1024, u 0⟩, ⟨S1024x1024, u 1⟩, ⟨S1024x1024, u 2⟩, ⟨S1024x1024, u 3⟩] concatenates_S1024x1024_S1024x1024_S1024x1024_S1024x1024_S1024x4096_d1),
    StableHlo.unary main_v11 main_v19 (Host.negf (F := Ideal) (s := S1024x1024) (φ := .f32)),
    StableHlo.unary main_v10 main_v20 (Host.negf (F := Ideal) (s := S1024x1024) (φ := .f32)),
    StableHlo.nary ![main_v19, main_v20, main_v9, main_v8] main_v21 (fun u => concatenate S1024x4096 1 [⟨S1024x1024, u 0⟩, ⟨S1024x1024, u 1⟩, ⟨S1024x1024, u 2⟩, ⟨S1024x1024, u 3⟩] concatenates_S1024x1024_S1024x1024_S1024x1024_S1024x1024_S1024x4096_d1) ]
/-- The block rows joined, and x re-laid. -/
abbrev stretch3 : List (HloOp τ sig (Elt Ideal)) :=
  [ StableHlo.nary ![main_v12, main_v15, main_v18, main_v21] main_v22 (fun u => concatenate S4096x4096 0 [⟨S1024x4096, u 0⟩, ⟨S1024x4096, u 1⟩, ⟨S1024x4096, u 2⟩, ⟨S1024x4096, u 3⟩] concatenates_S1024x4096_S1024x4096_S1024x4096_S1024x4096_S4096x4096_d0),
    StableHlo.unary main_arg0 main_v23 ((transpose S4096x4x1024 [0, 2, 1] · transposes_S4096x1024x4_S4096x4x1024_0_2_1) : (⟨S4096x1024x4, .f32⟩ : BufTy).Contents (Elt Ideal) → (⟨S4096x4x1024, .f32⟩ : BufTy).Contents (Elt Ideal)),
    StableHlo.reshape main_v23 main_v24 rfl shapeCasts_S4096x4x1024_S4096x4096 ]

theorem hostOps0_split : (hostOps0 (F := Ideal)) = stretch1 ++ (stretch2 ++ stretch3) := rfl

theorem s1_v8 (V : Valuation τ sig (Elt Ideal)) :
    StableHlo.after stretch1 V (Proc.devRef .tc main_v8) = wT0 (V (Proc.devRef (τ := τ) .tc main_arg1)) := by
  unfold stretch1
  host_rw
  rfl

theorem s1_v9 (V : Valuation τ sig (Elt Ideal)) :
    StableHlo.after stretch1 V (Proc.devRef .tc main_v9) = wT1 (V (Proc.devRef (τ := τ) .tc main_arg1)) := by
  unfold stretch1
  host_rw
  rfl

theorem s1_v10 (V : Valuation τ sig (Elt Ideal)) :
    StableHlo.after stretch1 V (Proc.devRef .tc main_v10) = wT2 (V (Proc.devRef (τ := τ) .tc main_arg1)) := by
  unfold stretch1
  host_rw
  rfl

theorem s1_v11 (V : Valuation τ sig (Elt Ideal)) :
    StableHlo.after stretch1 V (Proc.devRef .tc main_v11) = wT3 (V (Proc.devRef (τ := τ) .tc main_arg1)) := by
  unfold stretch1
  host_rw
  rfl

set_option maxHeartbeats 4000000 in
theorem s2_v12 (V : Valuation τ sig (Elt Ideal)) :
    StableHlo.after stretch2 V (Proc.devRef .tc main_v12)
      = concatenate S1024x4096 1 [⟨S1024x1024, (V (Proc.devRef (τ := τ) .tc main_v8))⟩, ⟨S1024x1024, (V (Proc.devRef (τ := τ) .tc main_v9))⟩, ⟨S1024x1024, (V (Proc.devRef (τ := τ) .tc main_v10))⟩, ⟨S1024x1024, (V (Proc.devRef (τ := τ) .tc main_v11))⟩] concatenates_S1024x1024_S1024x1024_S1024x1024_S1024x1024_S1024x4096_d1 := by
  unfold stretch2
  host_rw
  rfl

set_option maxHeartbeats 4000000 in
theorem s2_v15 (V : Valuation τ sig (Elt Ideal)) :
    StableHlo.after stretch2 V (Proc.devRef .tc main_v15)
      = concatenate S1024x4096 1 [⟨S1024x1024, Host.negf (F := Ideal) (φ := .f32) (V (Proc.devRef (τ := τ) .tc main_v9))⟩, ⟨S1024x1024, (V (Proc.devRef (τ := τ) .tc main_v8))⟩, ⟨S1024x1024, Host.negf (F := Ideal) (φ := .f32) (V (Proc.devRef (τ := τ) .tc main_v11))⟩, ⟨S1024x1024, (V (Proc.devRef (τ := τ) .tc main_v10))⟩] concatenates_S1024x1024_S1024x1024_S1024x1024_S1024x1024_S1024x4096_d1 := by
  unfold stretch2
  host_rw
  rfl

set_option maxHeartbeats 4000000 in
theorem s2_v18 (V : Valuation τ sig (Elt Ideal)) :
    StableHlo.after stretch2 V (Proc.devRef .tc main_v18)
      = concatenate S1024x4096 1 [⟨S1024x1024, Host.negf (F := Ideal) (φ := .f32) (V (Proc.devRef (τ := τ) .tc main_v10))⟩, ⟨S1024x1024, (V (Proc.devRef (τ := τ) .tc main_v11))⟩, ⟨S1024x1024, (V (Proc.devRef (τ := τ) .tc main_v8))⟩, ⟨S1024x1024, Host.negf (F := Ideal) (φ := .f32) (V (Proc.devRef (τ := τ) .tc main_v9))⟩] concatenates_S1024x1024_S1024x1024_S1024x1024_S1024x1024_S1024x4096_d1 := by
  unfold stretch2
  host_rw
  rfl

set_option maxHeartbeats 4000000 in
theorem s2_v21 (V : Valuation τ sig (Elt Ideal)) :
    StableHlo.after stretch2 V (Proc.devRef .tc main_v21)
      = concatenate S1024x4096 1 [⟨S1024x1024, Host.negf (F := Ideal) (φ := .f32) (V (Proc.devRef (τ := τ) .tc main_v11))⟩, ⟨S1024x1024, Host.negf (F := Ideal) (φ := .f32) (V (Proc.devRef (τ := τ) .tc main_v10))⟩, ⟨S1024x1024, (V (Proc.devRef (τ := τ) .tc main_v9))⟩, ⟨S1024x1024, (V (Proc.devRef (τ := τ) .tc main_v8))⟩] concatenates_S1024x1024_S1024x1024_S1024x1024_S1024x1024_S1024x4096_d1 := by
  unfold stretch2
  host_rw
  rfl

set_option maxHeartbeats 4000000 in
theorem s3_v22 (V : Valuation τ sig (Elt Ideal)) :
    StableHlo.after stretch3 V (Proc.devRef .tc main_v22)
      = concatenate S4096x4096 0 [⟨S1024x4096, (V (Proc.devRef (τ := τ) .tc main_v12))⟩, ⟨S1024x4096, (V (Proc.devRef (τ := τ) .tc main_v15))⟩, ⟨S1024x4096, (V (Proc.devRef (τ := τ) .tc main_v18))⟩, ⟨S1024x4096, (V (Proc.devRef (τ := τ) .tc main_v21))⟩] concatenates_S1024x4096_S1024x4096_S1024x4096_S1024x4096_S4096x4096_d0 := by
  unfold stretch3
  host_rw
  rfl

theorem MF_term (c : Dev nD) : MF m c = mfull (m ((c : Thread nD τ).loc main_arg1)) := by
  show StableHlo.after (hostOps0 (F := Ideal)) (fun b => m (c, b)) (Proc.devRef .tc main_v22) = _
  rw [hostOps0_split, after_append, after_append, s3_v22, s2_v12, s2_v15, s2_v18, s2_v21, s1_v8, s1_v9, s1_v10, s1_v11]
  rfl

/-- The Hamilton product's table: the coefficient of component s of the input in component c of the output, for the
    weight at (o, i). -/
def ham (w : S1024x1024x4.Idx → EReal) (o i : Fin 1024) : Fin 4 → Fin 4 → EReal
  | 0, 0 => w (ix3 o i 0)
  | 0, 1 => w (ix3 o i 1)
  | 0, 2 => w (ix3 o i 2)
  | 0, 3 => w (ix3 o i 3)
  | 1, 0 => -(w (ix3 o i 1))
  | 1, 1 => w (ix3 o i 0)
  | 1, 2 => -(w (ix3 o i 3))
  | 1, 3 => w (ix3 o i 2)
  | 2, 0 => -(w (ix3 o i 2))
  | 2, 1 => w (ix3 o i 3)
  | 2, 2 => w (ix3 o i 0)
  | 2, 3 => -(w (ix3 o i 1))
  | 3, 0 => -(w (ix3 o i 3))
  | 3, 1 => -(w (ix3 o i 2))
  | 3, 2 => w (ix3 o i 1)
  | 3, 3 => w (ix3 o i 0)

theorem mfull_apply (w : S1024x1024x4.Idx → EReal) (s c : Fin 4) (i o : Fin 1024)
    (h1 : 1024 * s.val + i.val < 4096) (h2 : 1024 * c.val + o.val < 4096) :
    mfull w (ix2 ⟨1024 * s.val + i.val, h1⟩ ⟨1024 * c.val + o.val, h2⟩) = ham w o i s c := by
  unfold mfull
  refine (Cert.LibConcat4.stacked (a := 1024) (b := 4096) (n := 4096) _ _ _ _ _ s i ⟨1024 * c.val + o.val, h2⟩ h1).trans ?_
  match s with
  | ⟨0, _⟩ =>
    show mrow0 w (ix2 i ⟨1024 * c.val + o.val, h2⟩) = _
    unfold mrow0
    refine (Cert.LibConcat4.side_by_side (a := 1024) (b := 1024) (n := 4096) _ _ _ _ _ i c o h2).trans ?_
    match c with
    | ⟨0, _⟩ => exact wT0_apply w i o
    | ⟨1, _⟩ => exact wT1_apply w i o
    | ⟨2, _⟩ => exact wT2_apply w i o
    | ⟨3, _⟩ => exact wT3_apply w i o
  | ⟨1, _⟩ =>
    show mrow1 w (ix2 i ⟨1024 * c.val + o.val, h2⟩) = _
    unfold mrow1
    refine (Cert.LibConcat4.side_by_side (a := 1024) (b := 1024) (n := 4096) _ _ _ _ _ i c o h2).trans ?_
    match c with
    | ⟨0, _⟩ => show -(wT1 w (ix2 i o)) = -(w (ix3 o i 1)); rw [wT1_apply]
    | ⟨1, _⟩ => exact wT0_apply w i o
    | ⟨2, _⟩ => show -(wT3 w (ix2 i o)) = -(w (ix3 o i 3)); rw [wT3_apply]
    | ⟨3, _⟩ => exact wT2_apply w i o
  | ⟨2, _⟩ =>
    show mrow2 w (ix2 i ⟨1024 * c.val + o.val, h2⟩) = _
    unfold mrow2
    refine (Cert.LibConcat4.side_by_side (a := 1024) (b := 1024) (n := 4096) _ _ _ _ _ i c o h2).trans ?_
    match c with
    | ⟨0, _⟩ => show -(wT2 w (ix2 i o)) = -(w (ix3 o i 2)); rw [wT2_apply]
    | ⟨1, _⟩ => exact wT3_apply w i o
    | ⟨2, _⟩ => exact wT0_apply w i o
    | ⟨3, _⟩ => show -(wT1 w (ix2 i o)) = -(w (ix3 o i 1)); rw [wT1_apply]
  | ⟨3, _⟩ =>
    show mrow3 w (ix2 i ⟨1024 * c.val + o.val, h2⟩) = _
    unfold mrow3
    refine (Cert.LibConcat4.side_by_side (a := 1024) (b := 1024) (n := 4096) _ _ _ _ _ i c o h2).trans ?_
    match c with
    | ⟨0, _⟩ => show -(wT3 w (ix2 i o)) = -(w (ix3 o i 3)); rw [wT3_apply]
    | ⟨1, _⟩ => show -(wT2 w (ix2 i o)) = -(w (ix3 o i 2)); rw [wT2_apply]
    | ⟨2, _⟩ => exact wT1_apply w i o
    | ⟨3, _⟩ => exact wT0_apply w i o

end Cert.KernelIdeal.Fr

end
-- ==== Proof.KernelValue.lean ====
/-
  The idealized kernel's result, read at an entry.

  After the region the host lines view the product [4096, 4096] as [4096, 4, 1024], exchange the last two axes and add
  the bias [1024, 4] broadcast over the rows: the result's entry (b, o, c) is the product's entry (b, 1024·c + o) plus
  bias (o, c). The product's entry is the inner product of row b of the left operand with column 1024·c + o of the right
  operand; taken in four tiles of 1024 positions, tile s collects component s of x against block (s, c) of the right
  operand, whose entries are the Hamilton product's coefficients.
-/
import proofs.«116105_j68238440399557_1_alg».proof.Proof.OperandLayout

set_option maxRecDepth 16384

noncomputable section

namespace Cert.KernelIdeal.Fr

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)
open Cert.Quat

variable (m : (ℓ : Loc nD τ sig) → Buf (Elt Ideal) ℓ) (ρ : Dev nD → PrngReg)

open Idealize.ShloMosaic.StableHlo

/-- Reads a buffer after a literal list of host operations, in one pass: each operation's result at its own buffer is its
    function of the operands' contents, and at any other buffer what was there before. -/
macro "host_results" : tactic =>
  `(tactic| (simp (disch := decide) only [StableHlo.after_cons, StableHlo.after_nil,
      StableHlo.unary_result', StableHlo.binary_result', StableHlo.reshape_result', StableHlo.nary4_result',
      StableHlo.unary_result_ne', StableHlo.binary_result_ne', StableHlo.reshape_result_ne', StableHlo.nary_result_ne']))

/-- The lines after the region, as a function of the product array and the bias. -/
def kres (P : (⟨2, ![4096, 4096]⟩ : Shape).Idx → EReal) (bias : S1024x4.Idx → EReal) : S4096x1024x4.Idx → EReal :=
  addf (F := Ideal) (s := S4096x1024x4) (φ := .f32)
    (transpose S4096x1024x4 [0, 2, 1] (shapeCast S4096x4x1024 P shapeCasts_S4096x4096_S4096x4x1024) transposes_S4096x4x1024_S4096x1024x4_0_2_1)
    (broadcastInDim S4096x1024x4 ![0, 1, 2] bcast_S1x1024x4_S4096x1024x4_0_1_2 (broadcastInDim S1x1024x4 ![1, 2] bcast_S1024x4_S1x1024x4_1_2 bias))

/-- What the result buffer holds after the run. -/
theorem tail_eq (c : Dev nD) :
    Pipeline.afterTail₀ cfgs (dats m) 0 (V0 m) [hostOps1] c main_v30 = kres (prod m c) (m ((c : Thread nD τ).loc main_arg2)) := by
  unfold Pipeline.afterTail₀
  show StableHlo.after (hostOps1 (F := Ideal)) _ (Proc.devRef .tc main_v30) = _
  host_results
  have h25 : Pipeline.withArrays (cfgs 0).spec c (V0 m c) (fun w => (dats m 0 c).arrAt w (cfgs 0).N) (Proc.devRef .tc main_v25) = prod m c :=
    (Pipeline.withArrays_arr spec0 launch0.win.arr_inj c _ _ 2).trans (final2 m c)
  have h2 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  rw [h25, h2]
  rfl

theorem kres_apply (P : (⟨2, ![4096, 4096]⟩ : Shape).Idx → EReal) (bias : S1024x4.Idx → EReal)
    (b : Fin 4096) (o : Fin 1024) (cc : Fin 4) (h : 1024 * cc.val + o.val < 4096) :
    kres P bias (ix3 b o cc) = P (ix2 b ⟨1024 * cc.val + o.val, h⟩) + bias (ix2 o cc) := by
  unfold kres
  show _ + _ = _
  congr 1
  · refine (transpose_apply [0, 2, 1] _ _ (ix3 b o cc) (ix3 b cc o) (fun bx => match bx with | ⟨0, _⟩ => rfl | ⟨1, _⟩ => rfl | ⟨2, _⟩ => rfl)).trans ?_
    have e : (⟨1024 * cc.val + o.val, h⟩ : Fin 4096) = ⟨cc.val * 1024 + o.val, by omega⟩ := Fin.ext (by show 1024 * cc.val + o.val = cc.val * 1024 + o.val; omega)
    rw [e]
    exact Cert.LibRank3.cast_flat_to_stack (a := 4096) (n := 4096) (b := 4) (c := 1024) rfl P _ b cc o _
  · refine (broadcastInDim_apply _ bcast_S1x1024x4_S4096x1024x4_0_1_2 _ (ix3 b o cc) (ix3 (0 : Fin 1) o cc) (fun a => match a with
      | ⟨0, _⟩ => by show 0 = if (1 : Nat) = 1 then 0 else b.val; rw [if_pos rfl]
      | ⟨1, _⟩ => by show o.val = if (1024 : Nat) = 1 then 0 else o.val; rw [if_neg (by decide)]
      | ⟨2, _⟩ => by show cc.val = if (4 : Nat) = 1 then 0 else cc.val; rw [if_neg (by decide)])).trans ?_
    exact broadcastInDim_apply _ bcast_S1024x4_S1x1024x4_1_2 bias (ix3 (0 : Fin 1) o cc) (ix2 o cc) (fun a => match a with
      | ⟨0, _⟩ => by show o.val = if (1024 : Nat) = 1 then 0 else o.val; rw [if_neg (by decide)]
      | ⟨1, _⟩ => by show cc.val = if (4 : Nat) = 1 then 0 else cc.val; rw [if_neg (by decide)])

/-- The three arguments as launched, as arrays of extended reals. -/
abbrev argX (c : Dev nD) : S4096x1024x4.Idx → EReal := m ((c : Thread nD τ).loc main_arg0)
abbrev argW (c : Dev nD) : S1024x1024x4.Idx → EReal := m ((c : Thread nD τ).loc main_arg1)
abbrev argB (c : Dev nD) : S1024x4.Idx → EReal := m ((c : Thread nD τ).loc main_arg2)

/-- The result at (b, o, c): over the four components s of x and the input features i, x (b, i, s) times the Hamilton
    coefficient of component s in component c for the weight at (o, i); plus the bias. -/
theorem kernel_apply (c : Dev nD) (b : Fin 4096) (o : Fin 1024) (cc : Fin 4) :
    Pipeline.afterTail₀ cfgs (dats m) 0 (V0 m) [hostOps1] c main_v30 (ix3 b o cc)
      = (∑ s : Fin 4, ∑ i : Fin 1024, argX m c (ix3 b i s) * ham (argW m c) o i s cc) + argB m c (ix2 o cc) := by
  have hn : 1024 * cc.val + o.val < 4096 := by have := cc.isLt; have := o.isLt; omega
  rw [tail_eq, kres_apply _ _ b o cc hn]
  refine congrArg (· + _) ?_
  show ∑ l : Fin 4096, XF m c (ix2 b l) * MF m c (ix2 l ⟨1024 * cc.val + o.val, hn⟩) = _
  rw [← tiles_eq (XF m c) (MF m c) b ⟨1024 * cc.val + o.val, hn⟩ 1024 4 rfl, Finset.sum_range]
  refine Finset.sum_congr rfl fun s _ => Finset.sum_congr rfl fun i _ => ?_
  have hs : 1024 * s.val + i.val < 4096 := by have := s.isLt; have := i.isLt; omega
  rw [at2_of_lt _ b.isLt hs, at2_of_lt _ hs hn, XF_term, MF_term, xflat_apply _ b s i hs, mfull_apply _ s cc i o hs hn]

end Cert.KernelIdeal.Fr

end
-- ==== Proof.RefRead.lean ====
/-
  The reference's result read at an entry, over the extended reals.

  The reference takes the four components of x [4096, 1024, 4] and of the weight [1024, 1024, 4] apart, forms sixteen
  products of a component of x with the transpose of a component of the weight — entry (b, o) of such a product is the
  sum over the input feature i of x (b, i, c₁) · w (o, i, c₂) —, combines four of them with the Hamilton product's signs
  for each output component, lays the four results side by side along a new last axis, and adds the bias.
-/
import proofs.«116105_j68238440399557_1_alg».proof.Proof.Gen.ReferenceIdeal.Read
import proofs.«116105_j68238440399557_1_alg».proof.Proof.LibRank3
import Idealize.ShloMosaic.Lib.ValueIdx

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- Entry (b, o) of the product of component c₁ of x with the transpose of component c₂ of the weight. -/
def S (x0 : S4096x1024x4.Idx → EReal) (x1 : S1024x1024x4.Idx → EReal) (b : Fin 4096) (o : Fin 1024) (c1 c2 : Fin 4) : EReal :=
  ∑ i : Fin 1024, x0 (ix3 b i c1) * x1 (ix3 o i c2)

theorem compA0 (x0 : S4096x1024x4.Idx → EReal) (b : Fin 4096) (i : Fin 1024) : val_main_v1 (F := Ideal) x0 (ix2 b i) = x0 (ix3 b i 0) := by
  unfold val_main_v1 val_main_v0
  refine (Cert.LibRank3.cast_of_col _ _ b i).trans ?_
  exact Cert.LibRank3.slice_last (a := 4096) (b := 1024) (c := 4) 0 x0 slices_S4096x1024x4_S4096x1024x1_0_0_0 b i 0

theorem compB0 (x1 : S1024x1024x4.Idx → EReal) (o : Fin 1024) (i : Fin 1024) : val_main_v9 (F := Ideal) x1 (ix2 o i) = x1 (ix3 o i 0) := by
  unfold val_main_v9 val_main_v8
  refine (Cert.LibRank3.cast_of_col _ _ o i).trans ?_
  exact Cert.LibRank3.slice_last (a := 1024) (b := 1024) (c := 4) 0 x1 slices_S1024x1024x4_S1024x1024x1_0_0_0 o i 0

theorem compA1 (x0 : S4096x1024x4.Idx → EReal) (b : Fin 4096) (i : Fin 1024) : val_main_v3 (F := Ideal) x0 (ix2 b i) = x0 (ix3 b i 1) := by
  unfold val_main_v3 val_main_v2
  refine (Cert.LibRank3.cast_of_col _ _ b i).trans ?_
  exact Cert.LibRank3.slice_last (a := 4096) (b := 1024) (c := 4) 1 x0 slices_S4096x1024x4_S4096x1024x1_0_0_1 b i 0

theorem compB1 (x1 : S1024x1024x4.Idx → EReal) (o : Fin 1024) (i : Fin 1024) : val_main_v11 (F := Ideal) x1 (ix2 o i) = x1 (ix3 o i 1) := by
  unfold val_main_v11 val_main_v10
  refine (Cert.LibRank3.cast_of_col _ _ o i).trans ?_
  exact Cert.LibRank3.slice_last (a := 1024) (b := 1024) (c := 4) 1 x1 slices_S1024x1024x4_S1024x1024x1_0_0_1 o i 0

theorem compA2 (x0 : S4096x1024x4.Idx → EReal) (b : Fin 4096) (i : Fin 1024) : val_main_v5 (F := Ideal) x0 (ix2 b i) = x0 (ix3 b i 2) := by
  unfold val_main_v5 val_main_v4
  refine (Cert.LibRank3.cast_of_col _ _ b i).trans ?_
  exact Cert.LibRank3.slice_last (a := 4096) (b := 1024) (c := 4) 2 x0 slices_S4096x1024x4_S4096x1024x1_0_0_2 b i 0

theorem compB2 (x1 : S1024x1024x4.Idx → EReal) (o : Fin 1024) (i : Fin 1024) : val_main_v13 (F := Ideal) x1 (ix2 o i) = x1 (ix3 o i 2) := by
  unfold val_main_v13 val_main_v12
  refine (Cert.LibRank3.cast_of_col _ _ o i).trans ?_
  exact Cert.LibRank3.slice_last (a := 1024) (b := 1024) (c := 4) 2 x1 slices_S1024x1024x4_S1024x1024x1_0_0_2 o i 0

theorem compA3 (x0 : S4096x1024x4.Idx → EReal) (b : Fin 4096) (i : Fin 1024) : val_main_v7 (F := Ideal) x0 (ix2 b i) = x0 (ix3 b i 3) := by
  unfold val_main_v7 val_main_v6
  refine (Cert.LibRank3.cast_of_col _ _ b i).trans ?_
  exact Cert.LibRank3.slice_last (a := 4096) (b := 1024) (c := 4) 3 x0 slices_S4096x1024x4_S4096x1024x1_0_0_3 b i 0

theorem compB3 (x1 : S1024x1024x4.Idx → EReal) (o : Fin 1024) (i : Fin 1024) : val_main_v15 (F := Ideal) x1 (ix2 o i) = x1 (ix3 o i 3) := by
  unfold val_main_v15 val_main_v14
  refine (Cert.LibRank3.cast_of_col _ _ o i).trans ?_
  exact Cert.LibRank3.slice_last (a := 1024) (b := 1024) (c := 4) 3 x1 slices_S1024x1024x4_S1024x1024x1_0_0_3 o i 0

theorem mm16 (x0 : S4096x1024x4.Idx → EReal) (x1 : S1024x1024x4.Idx → EReal) (b : Fin 4096) (o : Fin 1024) :
    val_main_v16 (F := Ideal) x0 x1 (ix2 b o) = S x0 x1 b o 0 0 := by
  rw [val_main_v16_apply]
  unfold S
  refine Finset.sum_congr rfl fun k _ => ?_
  have el : lidx_main_v16 (ix2 b o) k = ix2 b k := funext fun a => Fin.ext (by match a with | ⟨0, _⟩ => rfl | ⟨1, _⟩ => rfl)
  have er : ridx_main_v16 (ix2 b o) k = ix2 o k := funext fun a => Fin.ext (by match a with | ⟨0, _⟩ => rfl | ⟨1, _⟩ => rfl)
  rw [el, er, compA0, compB0]

theorem mm17 (x0 : S4096x1024x4.Idx → EReal) (x1 : S1024x1024x4.Idx → EReal) (b : Fin 4096) (o : Fin 1024) :
    val_main_v17 (F := Ideal) x0 x1 (ix2 b o) = S x0 x1 b o 1 1 := by
  rw [val_main_v17_apply]
  unfold S
  refine Finset.sum_congr rfl fun k _ => ?_
  have el : lidx_main_v17 (ix2 b o) k = ix2 b k := funext fun a => Fin.ext (by match a with | ⟨0, _⟩ => rfl | ⟨1, _⟩ => rfl)
  have er : ridx_main_v17 (ix2 b o) k = ix2 o k := funext fun a => Fin.ext (by match a with | ⟨0, _⟩ => rfl | ⟨1, _⟩ => rfl)
  rw [el, er, compA1, compB1]

theorem mm19 (x0 : S4096x1024x4.Idx → EReal) (x1 : S1024x1024x4.Idx → EReal) (b : Fin 4096) (o : Fin 1024) :
    val_main_v19 (F := Ideal) x0 x1 (ix2 b o) = S x0 x1 b o 2 2 := by
  rw [val_main_v19_apply]
  unfold S
  refine Finset.sum_congr rfl fun k _ => ?_
  have el : lidx_main_v19 (ix2 b o) k = ix2 b k := funext fun a => Fin.ext (by match a with | ⟨0, _⟩ => rfl | ⟨1, _⟩ => rfl)
  have er : ridx_main_v19 (ix2 b o) k = ix2 o k := funext fun a => Fin.ext (by match a with | ⟨0, _⟩ => rfl | ⟨1, _⟩ => rfl)
  rw [el, er, compA2, compB2]

theorem mm21 (x0 : S4096x1024x4.Idx → EReal) (x1 : S1024x1024x4.Idx → EReal) (b : Fin 4096) (o : Fin 1024) :
    val_main_v21 (F := Ideal) x0 x1 (ix2 b o) = S x0 x1 b o 3 3 := by
  rw [val_main_v21_apply]
  unfold S
  refine Finset.sum_congr rfl fun k _ => ?_
  have el : lidx_main_v21 (ix2 b o) k = ix2 b k := funext fun a => Fin.ext (by match a with | ⟨0, _⟩ => rfl | ⟨1, _⟩ => rfl)
  have er : ridx_main_v21 (ix2 b o) k = ix2 o k := funext fun a => Fin.ext (by match a with | ⟨0, _⟩ => rfl | ⟨1, _⟩ => rfl)
  rw [el, er, compA3, compB3]

theorem mm23 (x0 : S4096x1024x4.Idx → EReal) (x1 : S1024x1024x4.Idx → EReal) (b : Fin 4096) (o : Fin 1024) :
    val_main_v23 (F := Ideal) x0 x1 (ix2 b o) = S x0 x1 b o 0 1 := by
  rw [val_main_v23_apply]
  unfold S
  refine Finset.sum_congr rfl fun k _ => ?_
  have el : lidx_main_v23 (ix2 b o) k = ix2 b k := funext fun a => Fin.ext (by match a with | ⟨0, _⟩ => rfl | ⟨1, _⟩ => rfl)
  have er : ridx_main_v23 (ix2 b o) k = ix2 o k := funext fun a => Fin.ext (by match a with | ⟨0, _⟩ => rfl | ⟨1, _⟩ => rfl)
  rw [el, er, compA0, compB1]

theorem mm24 (x0 : S4096x1024x4.Idx → EReal) (x1 : S1024x1024x4.Idx → EReal) (b : Fin 4096) (o : Fin 1024) :
    val_main_v24 (F := Ideal) x0 x1 (ix2 b o) = S x0 x1 b o 1 0 := by
  rw [val_main_v24_apply]
  unfold S
  refine Finset.sum_congr rfl fun k _ => ?_
  have el : lidx_main_v24 (ix2 b o) k = ix2 b k := funext fun a => Fin.ext (by match a with | ⟨0, _⟩ => rfl | ⟨1, _⟩ => rfl)
  have er : ridx_main_v24 (ix2 b o) k = ix2 o k := funext fun a => Fin.ext (by match a with | ⟨0, _⟩ => rfl | ⟨1, _⟩ => rfl)
  rw [el, er, compA1, compB0]

theorem mm26 (x0 : S4096x1024x4.Idx → EReal) (x1 : S1024x1024x4.Idx → EReal) (b : Fin 4096) (o : Fin 1024) :
    val_main_v26 (F := Ideal) x0 x1 (ix2 b o) = S x0 x1 b o 2 3 := by
  rw [val_main_v26_apply]
  unfold S
  refine Finset.sum_congr rfl fun k _ => ?_
  have el : lidx_main_v26 (ix2 b o) k = ix2 b k := funext fun a => Fin.ext (by match a with | ⟨0, _⟩ => rfl | ⟨1, _⟩ => rfl)
  have er : ridx_main_v26 (ix2 b o) k = ix2 o k := funext fun a => Fin.ext (by match a with | ⟨0, _⟩ => rfl | ⟨1, _⟩ => rfl)
  rw [el, er, compA2, compB3]

theorem mm28 (x0 : S4096x1024x4.Idx → EReal) (x1 : S1024x1024x4.Idx → EReal) (b : Fin 4096) (o : Fin 1024) :
    val_main_v28 (F := Ideal) x0 x1 (ix2 b o) = S x0 x1 b o 3 2 := by
  rw [val_main_v28_apply]
  unfold S
  refine Finset.sum_congr rfl fun k _ => ?_
  have el : lidx_main_v28 (ix2 b o) k = ix2 b k := funext fun a => Fin.ext (by match a with | ⟨0, _⟩ => rfl | ⟨1, _⟩ => rfl)
  have er : ridx_main_v28 (ix2 b o) k = ix2 o k := funext fun a => Fin.ext (by match a with | ⟨0, _⟩ => rfl | ⟨1, _⟩ => rfl)
  rw [el, er, compA3, compB2]

theorem mm30 (x0 : S4096x1024x4.Idx → EReal) (x1 : S1024x1024x4.Idx → EReal) (b : Fin 4096) (o : Fin 1024) :
    val_main_v30 (F := Ideal) x0 x1 (ix2 b o) = S x0 x1 b o 0 2 := by
  rw [val_main_v30_apply]
  unfold S
  refine Finset.sum_congr rfl fun k _ => ?_
  have el : lidx_main_v30 (ix2 b o) k = ix2 b k := funext fun a => Fin.ext (by match a with | ⟨0, _⟩ => rfl | ⟨1, _⟩ => rfl)
  have er : ridx_main_v30 (ix2 b o) k = ix2 o k := funext fun a => Fin.ext (by match a with | ⟨0, _⟩ => rfl | ⟨1, _⟩ => rfl)
  rw [el, er, compA0, compB2]

theorem mm31 (x0 : S4096x1024x4.Idx → EReal) (x1 : S1024x1024x4.Idx → EReal) (b : Fin 4096) (o : Fin 1024) :
    val_main_v31 (F := Ideal) x0 x1 (ix2 b o) = S x0 x1 b o 1 3 := by
  rw [val_main_v31_apply]
  unfold S
  refine Finset.sum_congr rfl fun k _ => ?_
  have el : lidx_main_v31 (ix2 b o) k = ix2 b k := funext fun a => Fin.ext (by match a with | ⟨0, _⟩ => rfl | ⟨1, _⟩ => rfl)
  have er : ridx_main_v31 (ix2 b o) k = ix2 o k := funext fun a => Fin.ext (by match a with | ⟨0, _⟩ => rfl | ⟨1, _⟩ => rfl)
  rw [el, er, compA1, compB3]

theorem mm33 (x0 : S4096x1024x4.Idx → EReal) (x1 : S1024x1024x4.Idx → EReal) (b : Fin 4096) (o : Fin 1024) :
    val_main_v33 (F := Ideal) x0 x1 (ix2 b o) = S x0 x1 b o 2 0 := by
  rw [val_main_v33_apply]
  unfold S
  refine Finset.sum_congr rfl fun k _ => ?_
  have el : lidx_main_v33 (ix2 b o) k = ix2 b k := funext fun a => Fin.ext (by match a with | ⟨0, _⟩ => rfl | ⟨1, _⟩ => rfl)
  have er : ridx_main_v33 (ix2 b o) k = ix2 o k := funext fun a => Fin.ext (by match a with | ⟨0, _⟩ => rfl | ⟨1, _⟩ => rfl)
  rw [el, er, compA2, compB0]

theorem mm35 (x0 : S4096x1024x4.Idx → EReal) (x1 : S1024x1024x4.Idx → EReal) (b : Fin 4096) (o : Fin 1024) :
    val_main_v35 (F := Ideal) x0 x1 (ix2 b o) = S x0 x1 b o 3 1 := by
  rw [val_main_v35_apply]
  unfold S
  refine Finset.sum_congr rfl fun k _ => ?_
  have el : lidx_main_v35 (ix2 b o) k = ix2 b k := funext fun a => Fin.ext (by match a with | ⟨0, _⟩ => rfl | ⟨1, _⟩ => rfl)
  have er : ridx_main_v35 (ix2 b o) k = ix2 o k := funext fun a => Fin.ext (by match a with | ⟨0, _⟩ => rfl | ⟨1, _⟩ => rfl)
  rw [el, er, compA3, compB1]

theorem mm37 (x0 : S4096x1024x4.Idx → EReal) (x1 : S1024x1024x4.Idx → EReal) (b : Fin 4096) (o : Fin 1024) :
    val_main_v37 (F := Ideal) x0 x1 (ix2 b o) = S x0 x1 b o 0 3 := by
  rw [val_main_v37_apply]
  unfold S
  refine Finset.sum_congr rfl fun k _ => ?_
  have el : lidx_main_v37 (ix2 b o) k = ix2 b k := funext fun a => Fin.ext (by match a with | ⟨0, _⟩ => rfl | ⟨1, _⟩ => rfl)
  have er : ridx_main_v37 (ix2 b o) k = ix2 o k := funext fun a => Fin.ext (by match a with | ⟨0, _⟩ => rfl | ⟨1, _⟩ => rfl)
  rw [el, er, compA0, compB3]

theorem mm38 (x0 : S4096x1024x4.Idx → EReal) (x1 : S1024x1024x4.Idx → EReal) (b : Fin 4096) (o : Fin 1024) :
    val_main_v38 (F := Ideal) x0 x1 (ix2 b o) = S x0 x1 b o 1 2 := by
  rw [val_main_v38_apply]
  unfold S
  refine Finset.sum_congr rfl fun k _ => ?_
  have el : lidx_main_v38 (ix2 b o) k = ix2 b k := funext fun a => Fin.ext (by match a with | ⟨0, _⟩ => rfl | ⟨1, _⟩ => rfl)
  have er : ridx_main_v38 (ix2 b o) k = ix2 o k := funext fun a => Fin.ext (by match a with | ⟨0, _⟩ => rfl | ⟨1, _⟩ => rfl)
  rw [el, er, compA1, compB2]

theorem mm40 (x0 : S4096x1024x4.Idx → EReal) (x1 : S1024x1024x4.Idx → EReal) (b : Fin 4096) (o : Fin 1024) :
    val_main_v40 (F := Ideal) x0 x1 (ix2 b o) = S x0 x1 b o 2 1 := by
  rw [val_main_v40_apply]
  unfold S
  refine Finset.sum_congr rfl fun k _ => ?_
  have el : lidx_main_v40 (ix2 b o) k = ix2 b k := funext fun a => Fin.ext (by match a with | ⟨0, _⟩ => rfl | ⟨1, _⟩ => rfl)
  have er : ridx_main_v40 (ix2 b o) k = ix2 o k := funext fun a => Fin.ext (by match a with | ⟨0, _⟩ => rfl | ⟨1, _⟩ => rfl)
  rw [el, er, compA2, compB1]

theorem mm42 (x0 : S4096x1024x4.Idx → EReal) (x1 : S1024x1024x4.Idx → EReal) (b : Fin 4096) (o : Fin 1024) :
    val_main_v42 (F := Ideal) x0 x1 (ix2 b o) = S x0 x1 b o 3 0 := by
  rw [val_main_v42_apply]
  unfold S
  refine Finset.sum_congr rfl fun k _ => ?_
  have el : lidx_main_v42 (ix2 b o) k = ix2 b k := funext fun a => Fin.ext (by match a with | ⟨0, _⟩ => rfl | ⟨1, _⟩ => rfl)
  have er : ridx_main_v42 (ix2 b o) k = ix2 o k := funext fun a => Fin.ext (by match a with | ⟨0, _⟩ => rfl | ⟨1, _⟩ => rfl)
  rw [el, er, compA3, compB0]

/-- Output component c at (b, o), before the bias: four of the products with the Hamilton product's signs. -/
def comb (x0 : S4096x1024x4.Idx → EReal) (x1 : S1024x1024x4.Idx → EReal) (b : Fin 4096) (o : Fin 1024) : Fin 4 → EReal
  | 0 => ((S x0 x1 b o 0 0 - S x0 x1 b o 1 1) - S x0 x1 b o 2 2) - S x0 x1 b o 3 3
  | 1 => ((S x0 x1 b o 0 1 + S x0 x1 b o 1 0) + S x0 x1 b o 2 3) - S x0 x1 b o 3 2
  | 2 => ((S x0 x1 b o 0 2 - S x0 x1 b o 1 3) + S x0 x1 b o 2 0) + S x0 x1 b o 3 1
  | 3 => ((S x0 x1 b o 0 3 + S x0 x1 b o 1 2) - S x0 x1 b o 2 1) + S x0 x1 b o 3 0

theorem chain0 (x0 : S4096x1024x4.Idx → EReal) (x1 : S1024x1024x4.Idx → EReal) (b : Fin 4096) (o : Fin 1024) :
    val_main_v22 (F := Ideal) x0 x1 (ix2 b o) = comb x0 x1 b o 0 := by
  rw [val_main_v22_apply, val_main_v20_apply, val_main_v18_apply, mm16, mm17, mm19, mm21]
  rfl

theorem chain1 (x0 : S4096x1024x4.Idx → EReal) (x1 : S1024x1024x4.Idx → EReal) (b : Fin 4096) (o : Fin 1024) :
    val_main_v29 (F := Ideal) x0 x1 (ix2 b o) = comb x0 x1 b o 1 := by
  rw [val_main_v29_apply, val_main_v27_apply, val_main_v25_apply, mm23, mm24, mm26, mm28]
  rfl

theorem chain2 (x0 : S4096x1024x4.Idx → EReal) (x1 : S1024x1024x4.Idx → EReal) (b : Fin 4096) (o : Fin 1024) :
    val_main_v36 (F := Ideal) x0 x1 (ix2 b o) = comb x0 x1 b o 2 := by
  rw [val_main_v36_apply, val_main_v34_apply, val_main_v32_apply, mm30, mm31, mm33, mm35]
  rfl

theorem chain3 (x0 : S4096x1024x4.Idx → EReal) (x1 : S1024x1024x4.Idx → EReal) (b : Fin 4096) (o : Fin 1024) :
    val_main_v43 (F := Ideal) x0 x1 (ix2 b o) = comb x0 x1 b o 3 := by
  rw [val_main_v43_apply, val_main_v41_apply, val_main_v39_apply, mm37, mm38, mm40, mm42]
  rfl

/-- The reference's result at (b, o, c). -/
theorem ref_apply (x0 : S4096x1024x4.Idx → EReal) (x1 : S1024x1024x4.Idx → EReal) (x2 : S1024x4.Idx → EReal) (b : Fin 4096) (o : Fin 1024) (c : Fin 4) :
    val_main_v51 (F := Ideal) x0 x1 x2 (ix3 b o c) = comb x0 x1 b o c + x2 (ix2 o c) := by
  rw [val_main_v51_apply]
  show _ + _ = _
  have hb : val_main_v50 (F := Ideal) x2 (ix3 b o c) = x2 (ix2 o c) := by
    rw [val_main_v50_apply, val_main_v49_apply]
    exact congrArg x2 (funext fun a => Fin.ext (by match a with | ⟨0, _⟩ => rfl | ⟨1, _⟩ => rfl))
  rw [hb]
  refine congrArg (· + x2 (ix2 o c)) ?_
  unfold val_main_v48
  refine (Cert.LibRank3.concat4_cols (a := 4096) (b := 1024) _ _ _ _ _ b o c).trans ?_
  match c with
  | ⟨0, _⟩ =>
    show val_main_v44 (F := Ideal) x0 x1 (ix3 b o 0) = _
    rw [val_main_v44_apply]
    have e : idx_main_v44 (ix3 b o (0 : Fin 1)) = ix2 b o := funext fun a => Fin.ext (by match a with | ⟨0, _⟩ => rfl | ⟨1, _⟩ => rfl)
    rw [e]
    exact chain0 x0 x1 b o
  | ⟨1, _⟩ =>
    show val_main_v45 (F := Ideal) x0 x1 (ix3 b o 0) = _
    rw [val_main_v45_apply]
    have e : idx_main_v45 (ix3 b o (0 : Fin 1)) = ix2 b o := funext fun a => Fin.ext (by match a with | ⟨0, _⟩ => rfl | ⟨1, _⟩ => rfl)
    rw [e]
    exact chain1 x0 x1 b o
  | ⟨2, _⟩ =>
    show val_main_v46 (F := Ideal) x0 x1 (ix3 b o 0) = _
    rw [val_main_v46_apply]
    have e : idx_main_v46 (ix3 b o (0 : Fin 1)) = ix2 b o := funext fun a => Fin.ext (by match a with | ⟨0, _⟩ => rfl | ⟨1, _⟩ => rfl)
    rw [e]
    exact chain2 x0 x1 b o
  | ⟨3, _⟩ =>
    show val_main_v47 (F := Ideal) x0 x1 (ix3 b o 0) = _
    rw [val_main_v47_apply]
    have e : idx_main_v47 (ix3 b o (0 : Fin 1)) = ix2 b o := funext fun a => Fin.ext (by match a with | ⟨0, _⟩ => rfl | ⟨1, _⟩ => rfl)
    rw [e]
    exact chain3 x0 x1 b o

end Cert.ReferenceIdeal.RefValue

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.Bridge.lean ====
/-
  The two programs' results are one function of finite inputs.

  Output component c at (b, o) is, on the kernel's side, the sum over the four components s of x of the inner product
  over the input features of x (·, ·, s) with the Hamilton coefficient of s in c; on the reference's side a chain
  of four such inner products with plus and minus signs, listed in the same order. A coefficient is plus or minus a
  component of the weight, and a difference is the sum with the negative, so the two agree once a sum of products with
  negated second factors is minus the sum of the products: that holds on real entries, and the precondition makes every
  entry of x and of the weight real.
-/
import proofs.«116105_j68238440399557_1_alg».proof.Proof.KernelValue
import proofs.«116105_j68238440399557_1_alg».proof.Proof.RefRead
import proofs.«116105_j68238440399557_1_alg».proof.Proof.LibAllFinite
import proofs.«116105_j68238440399557_1_alg».proof.Proof.ProductMath
import proofs.«116105_j68238440399557_1_alg».proof.Pre_finite_inputs

set_option maxRecDepth 16384

noncomputable section

namespace Cert.Bridge

open Idealize.ShloMosaic Idealize.ShloMosaic.ValueIdx
open Cert.RealMath Cert.Quat
open Cert.KernelIdeal.Fr (ham)
open Cert.ReferenceIdeal.RefValue (S comb)

theorem neg_S (x : (⟨3, ![4096, 1024, 4]⟩ : Shape).Idx → EReal) (w : (⟨3, ![1024, 1024, 4]⟩ : Shape).Idx → EReal) (hx : ∀ i, IsReal (x i)) (hw : ∀ i, IsReal (w i)) (b : Fin 4096) (o : Fin 1024) (c1 c2 : Fin 4) :
    ∑ i : Fin 1024, x (ix3 b i c1) * -(w (ix3 o i c2)) = -(S x w b o c1 c2) :=
  sum_mul_neg _ _ (fun i => hx _) (fun i => hw _)

theorem ham_comb0 (x : (⟨3, ![4096, 1024, 4]⟩ : Shape).Idx → EReal) (w : (⟨3, ![1024, 1024, 4]⟩ : Shape).Idx → EReal) (hx : ∀ i, IsReal (x i)) (hw : ∀ i, IsReal (w i)) (b : Fin 4096) (o : Fin 1024) :
    ∑ s : Fin 4, ∑ i : Fin 1024, x (ix3 b i s) * ham w o i s 0 = comb x w b o 0 := by
  rw [Fin.sum_univ_four]
  have t0 : (∑ i : Fin 1024, x (ix3 b i 0) * ham w o i 0 0) = S x w b o 0 0 := rfl
  have t1 : (∑ i : Fin 1024, x (ix3 b i 1) * ham w o i 1 0) = -(S x w b o 1 1) := neg_S x w hx hw b o 1 1
  have t2 : (∑ i : Fin 1024, x (ix3 b i 2) * ham w o i 2 0) = -(S x w b o 2 2) := neg_S x w hx hw b o 2 2
  have t3 : (∑ i : Fin 1024, x (ix3 b i 3) * ham w o i 3 0) = -(S x w b o 3 3) := neg_S x w hx hw b o 3 3
  rw [t0, t1, t2, t3]
  show _ = ((S x w b o 0 0 - S x w b o 1 1) - S x w b o 2 2) - S x w b o 3 3
  simp only [sub_eq_add_neg]

theorem ham_comb1 (x : (⟨3, ![4096, 1024, 4]⟩ : Shape).Idx → EReal) (w : (⟨3, ![1024, 1024, 4]⟩ : Shape).Idx → EReal) (hx : ∀ i, IsReal (x i)) (hw : ∀ i, IsReal (w i)) (b : Fin 4096) (o : Fin 1024) :
    ∑ s : Fin 4, ∑ i : Fin 1024, x (ix3 b i s) * ham w o i s 1 = comb x w b o 1 := by
  rw [Fin.sum_univ_four]
  have t0 : (∑ i : Fin 1024, x (ix3 b i 0) * ham w o i 0 1) = S x w b o 0 1 := rfl
  have t1 : (∑ i : Fin 1024, x (ix3 b i 1) * ham w o i 1 1) = S x w b o 1 0 := rfl
  have t2 : (∑ i : Fin 1024, x (ix3 b i 2) * ham w o i 2 1) = S x w b o 2 3 := rfl
  have t3 : (∑ i : Fin 1024, x (ix3 b i 3) * ham w o i 3 1) = -(S x w b o 3 2) := neg_S x w hx hw b o 3 2
  rw [t0, t1, t2, t3]
  show _ = ((S x w b o 0 1 + S x w b o 1 0) + S x w b o 2 3) - S x w b o 3 2
  simp only [sub_eq_add_neg]

theorem ham_comb2 (x : (⟨3, ![4096, 1024, 4]⟩ : Shape).Idx → EReal) (w : (⟨3, ![1024, 1024, 4]⟩ : Shape).Idx → EReal) (hx : ∀ i, IsReal (x i)) (hw : ∀ i, IsReal (w i)) (b : Fin 4096) (o : Fin 1024) :
    ∑ s : Fin 4, ∑ i : Fin 1024, x (ix3 b i s) * ham w o i s 2 = comb x w b o 2 := by
  rw [Fin.sum_univ_four]
  have t0 : (∑ i : Fin 1024, x (ix3 b i 0) * ham w o i 0 2) = S x w b o 0 2 := rfl
  have t1 : (∑ i : Fin 1024, x (ix3 b i 1) * ham w o i 1 2) = -(S x w b o 1 3) := neg_S x w hx hw b o 1 3
  have t2 : (∑ i : Fin 1024, x (ix3 b i 2) * ham w o i 2 2) = S x w b o 2 0 := rfl
  have t3 : (∑ i : Fin 1024, x (ix3 b i 3) * ham w o i 3 2) = S x w b o 3 1 := rfl
  rw [t0, t1, t2, t3]
  show _ = ((S x w b o 0 2 - S x w b o 1 3) + S x w b o 2 0) + S x w b o 3 1
  simp only [sub_eq_add_neg]

theorem ham_comb3 (x : (⟨3, ![4096, 1024, 4]⟩ : Shape).Idx → EReal) (w : (⟨3, ![1024, 1024, 4]⟩ : Shape).Idx → EReal) (hx : ∀ i, IsReal (x i)) (hw : ∀ i, IsReal (w i)) (b : Fin 4096) (o : Fin 1024) :
    ∑ s : Fin 4, ∑ i : Fin 1024, x (ix3 b i s) * ham w o i s 3 = comb x w b o 3 := by
  rw [Fin.sum_univ_four]
  have t0 : (∑ i : Fin 1024, x (ix3 b i 0) * ham w o i 0 3) = S x w b o 0 3 := rfl
  have t1 : (∑ i : Fin 1024, x (ix3 b i 1) * ham w o i 1 3) = S x w b o 1 2 := rfl
  have t2 : (∑ i : Fin 1024, x (ix3 b i 2) * ham w o i 2 3) = -(S x w b o 2 1) := neg_S x w hx hw b o 2 1
  have t3 : (∑ i : Fin 1024, x (ix3 b i 3) * ham w o i 3 3) = S x w b o 3 0 := rfl
  rw [t0, t1, t2, t3]
  show _ = ((S x w b o 0 3 + S x w b o 1 2) - S x w b o 2 1) + S x w b o 3 0
  simp only [sub_eq_add_neg]

/-- The kernel's sum over the Hamilton table is the reference's signed chain, for every output component. -/
theorem ham_comb (x : (⟨3, ![4096, 1024, 4]⟩ : Shape).Idx → EReal) (w : (⟨3, ![1024, 1024, 4]⟩ : Shape).Idx → EReal) (hx : ∀ i, IsReal (x i)) (hw : ∀ i, IsReal (w i)) (b : Fin 4096) (o : Fin 1024) (cc : Fin 4) :
    ∑ s : Fin 4, ∑ i : Fin 1024, x (ix3 b i s) * ham w o i s cc = comb x w b o cc :=
  match cc with
  | ⟨0, _⟩ => ham_comb0 x w hx hw b o
  | ⟨1, _⟩ => ham_comb1 x w hx hw b o
  | ⟨2, _⟩ => ham_comb2 x w hx hw b o
  | ⟨3, _⟩ => ham_comb3 x w hx hw b o

/-- The precondition makes every entry of the three inputs a real number. -/
theorem reals_of_fn [Cert.Pre_finite_inputs.Facts] (x : (⟨3, ![4096, 1024, 4]⟩ : Shape).Idx → EReal) (w : (⟨3, ![1024, 1024, 4]⟩ : Shape).Idx → EReal) (b2 : (⟨2, ![1024, 4]⟩ : Shape).Idx → EReal)
    (h : Cert.Pre_finite_inputs.fn (F := Ideal) x w b2 = fun _ => 1#1) :
    (∀ i, IsReal (x i)) ∧ (∀ i, IsReal (w i)) ∧ (∀ i, IsReal (b2 i)) := by
  have h0 := congrFun h ix0
  dsimp only [Cert.Pre_finite_inputs.fn] at h0
  obtain ⟨h01, h2⟩ := IntOp.andi_eq_one.mp h0
  obtain ⟨hx, hw⟩ := IntOp.andi_eq_one.mp h01
  exact ⟨Cert.Lib.AllFinite.real_of_all x _ _ _ hx, Cert.Lib.AllFinite.real_of_all w _ _ _ hw,
    Cert.Lib.AllFinite.real_of_all b2 _ _ _ h2⟩

end Cert.Bridge

end
-- ==== Proof.lean ====
/-
  A quaternion linear layer: x [4096, 1024, 4] holds 1024 input quaternions per row, the weight [1024, 1024, 4] one
  quaternion per pair (output feature, input feature), and the result [4096, 1024, 4] is, per row and output feature, the
  sum over the input features of the Hamilton products x · w, plus a bias [1024, 4].

  The kernel computes it as ONE real matrix product: x with its components laid side by side [4096, 4096], times a
  4 x 4 arrangement of signed, transposed components of the weight [4096, 4096], in blocks of 1024 x 1024 accumulated
  over eight steps of 512 shared positions; the reference as sixteen products of one component of x with the transpose
  of one component of the weight, combined with the Hamilton product's signs.

  Over the extended reals the kernel's accumulation is the whole inner product however it is tiled, a change of float
  format is the identity, and the two results are the same sums of the same terms in the same order, up to moving a
  minus sign out of a sum — which needs the entries to be real numbers, as the precondition makes them.

  The three frames: each program runs to the end without a fault and leaves its argument arrays as it found them.
  The idealization rewrote nothing in the kernel, so that conjunct is trivial.
-/
import proofs.«116105_j68238440399557_1_alg».proof.Defs
import proofs.«116105_j68238440399557_1_alg».proof.Proof.Gen.Kernel
import proofs.«116105_j68238440399557_1_alg».proof.Proof.Gen.KernelIdeal
import proofs.«116105_j68238440399557_1_alg».proof.Proof.Gen.ReferenceIdeal
import proofs.«116105_j68238440399557_1_alg».proof.Proof.Gen.Pre_finite_inputs
import proofs.«116105_j68238440399557_1_alg».proof.Proof.Gen.ReferenceIdeal.Run
import proofs.«116105_j68238440399557_1_alg».proof.Proof.RegionFrameK
import proofs.«116105_j68238440399557_1_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen Cert.KernelIdeal.Fr in
/-- The idealized kernel's run with its result named: the result buffer holds the lines after the region applied to the
    product array, and the three arguments end as launched. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v30) = Pipeline.afterTail₀ cfgs (dats m) 0 (V0 m) [hostOps1] c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v30 (Pipeline.mem_restRefs_of main_v30 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main (F := Ideal) m ρ)

/-- Both idealized programs, from memories agreeing on the arguments, end with equal results. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2]
  funext j
  obtain ⟨b, o, cc, rfl⟩ : ∃ (b : Fin 4096) (o : Fin 1024) (cc : Fin 4), j = ix3 b o cc := ⟨j 0, j 1, j 2, eq_ix3 j⟩
  obtain ⟨hx, hw, -⟩ := Cert.Bridge.reals_of_fn _ _ _ (hpre c)
  rw [Cert.ReferenceIdeal.RefValue.ref_apply]
  refine Eq.trans ?_ (Cert.KernelIdeal.Fr.kernel_apply m c b o cc).symm
  rw [Cert.Bridge.ham_comb _ _ hx hw b o cc]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
